-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x3 : Shape := ⟨3, ![32, 4096, 3]⟩
abbrev S1024x3 : Shape := ⟨2, ![1024, 3]⟩
abbrev S_ : Shape := ⟨0, ![]⟩

class Facts : Prop where
  bcast_S_S32x4096x3 : S_.BroadcastsInDim S32x4096x3 (![] : Fin 0 → Fin S32x4096x3.rank)
  reducesTo_S32x4096x3_S_d0_1_2 : S32x4096x3.ReducesTo [0, 1, 2] S_
  h_S_ : 0 < S_.numel
  bcast_S_S1024x3 : S_.BroadcastsInDim S1024x3 (![] : Fin 0 → Fin S1024x3.rank)
  reducesTo_S1024x3_S_d0_1 : S1024x3.ReducesTo [0, 1] S_

variable [Facts]

def fn {F : FTy → Type} [FloatOps F] (main_arg0 : FVec F S32x4096x3 .f32) (main_arg1 : FVec F S1024x3 .f32) : IVec S_ 1 :=
  let main_v0 : FVec F S32x4096x3 .f32 := Host.absf main_arg0
  let main_cst : FVec F S_ .f32 := constant S_ .f32 0x7F800000#32
  let main_v1 : FVec F S32x4096x3 .f32 := broadcastInDim S32x4096x3 ![] bcast_S_S32x4096x3 main_cst
  let main_v2 : IVec S32x4096x3 1 := cmpf .olt main_v0 main_v1
  let main_c : IVec S_ 1 := constantI S_ 1 1#1
  let main_v3 : IVec S_ 1 := (fun x v => Host.reduce IntOp.andi x v reducesTo_S32x4096x3_S_d0_1_2 h_S_) main_v2 main_c
  let main_v4 : FVec F S1024x3 .f32 := Host.absf main_arg1
  let main_cst_0 : FVec F S_ .f32 := constant S_ .f32 0x7F800000#32
  let main_v5 : FVec F S1024x3 .f32 := broadcastInDim S1024x3 ![] bcast_S_S1024x3 main_cst_0
  let main_v6 : IVec S1024x3 1 := cmpf .olt main_v4 main_v5
  let main_c_1 : IVec S_ 1 := constantI S_ 1 1#1
  let main_v7 : IVec S_ 1 := (fun x v => Host.reduce IntOp.andi x v reducesTo_S1024x3_S_d0_1 h_S_) main_v6 main_c_1
  let main_v8 : IVec S_ 1 := andi main_v3 main_v7
  main_v8
-- ==== Kernel.lean ====
abbrev S32x4096x3 : Shape := ⟨3, ![32, 4096, 3]⟩
abbrev S1024x3 : Shape := ⟨2, ![1024, 3]⟩
abbrev S32x3x4096 : Shape := ⟨3, ![32, 3, 4096]⟩
abbrev S3x1024 : Shape := ⟨2, ![3, 1024]⟩
abbrev S32x1024 : Shape := ⟨2, ![32, 1024]⟩
abbrev S3x128 : Shape := ⟨2, ![3, 128]⟩
abbrev S32x128 : Shape := ⟨2, ![32, 128]⟩
abbrev S32x3x256 : Shape := ⟨3, ![32, 3, 256]⟩
abbrev S32x256 : Shape := ⟨2, ![32, 256]⟩
abbrev S128 : Shape := ⟨1, ![128]⟩
abbrev S32x256x3 : Shape := ⟨3, ![32, 256, 3]⟩
abbrev S128x3 : Shape := ⟨2, ![128, 3]⟩
abbrev S1x128x3 : Shape := ⟨3, ![1, 128, 3]⟩
abbrev S32x128x3 : Shape := ⟨3, ![32, 128, 3]⟩
abbrev S32x256x128 : Shape := ⟨3, ![32, 256, 128]⟩
abbrev S32x256x1 : Shape := ⟨3, ![32, 256, 1]⟩
abbrev S1x1x128 : Shape := ⟨3, ![1, 1, 128]⟩

abbrev nBuf : Space → Nat
  | .hbm => 5
  | .vmem => 6
  | .smem => 0
  | _ => 0

abbrev bufTy : (tb : Table) → Fin (tcTables nBuf tb) → BufTy
  | .hbm, ⟨0, _⟩ => ⟨S32x4096x3, .f32⟩
  | .hbm, ⟨1, _⟩ => ⟨S1024x3, .f32⟩
  | .hbm, ⟨2, _⟩ => ⟨S32x3x4096, .f32⟩
  | .hbm, ⟨3, _⟩ => ⟨S3x1024, .f32⟩
  | .hbm, ⟨4, _⟩ => ⟨S32x1024, .f32⟩
  | .local _ .vmem, ⟨0, _⟩ => ⟨S32x3x4096, .f32⟩
  | .local _ .vmem, ⟨1, _⟩ => ⟨S3x128, .f32⟩
  | .local _ .vmem, ⟨2, _⟩ => ⟨S3x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | _, _ => ⟨S32x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let c0_1 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, 0, v5.toNat]
def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_14 : BitVec 32 := 0#32
  let v41 : BitVec 1 := Scalar.cmpi .ne v40 c0_i32_14
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S32x3x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S32x4096x3_S32x3x4096_0_2_1 : S32x4096x3.Transposes [0, 2, 1] S32x3x4096
  transposes_S1024x3_S3x1024_1_0 : S1024x3.Transposes [1, 0] S3x1024
  inb_S32x128_S32x128_0_0 : ∀ a, (![0, 0] : Fin 2 → Nat) a + S32x128.size a ≤ S32x128.size a
  h_S32x128 : 0 < S32x128.numel
  shapeCasts_S32x128_S32x128 : S32x128.ShapeCasts S32x128
  h_S32x3x256 : 0 < S32x3x256.numel
  shapeCasts_S32x3x256_S32x3x256 : S32x3x256.ShapeCasts S32x3x256
  inb_S3x128_S3x128_0_0 : ∀ a, (![0, 0] : Fin 2 → Nat) a + S3x128.size a ≤ S3x128.size a
  h_S3x128 : 0 < S3x128.numel
  shapeCasts_S3x128_S3x128 : S3x128.ShapeCasts S3x128
  reduces_S32x3x256_S32x256 : S32x3x256.Reduces [1] S32x256
  reduces_S3x128_S128 : S3x128.Reduces [0] S128
  transposes_S32x3x256_p0_2_1_S32x256x3 : S32x3x256.Transposes [0, 2, 1] S32x256x3
  transposes_S3x128_p1_0_S128x3 : S3x128.Transposes [1, 0] S128x3
  shapeCasts_S128x3_S1x128x3 : S128x3.ShapeCasts S1x128x3
  shapeCasts_S1x128x3_S1x128x3 : S1x128x3.ShapeCasts S1x128x3
  broadcasts_S1x128x3_S32x128x3 : S1x128x3.Broadcasts S32x128x3
  shapeCasts_S32x256_S32x256x1 : S32x256.ShapeCasts S32x256x1
  broadcasts_S32x256x1_S32x256x128 : S32x256x1.Broadcasts S32x256x128
  shapeCasts_S128_S1x1x128 : S128.ShapeCasts S1x1x128
  broadcasts_S1x1x128_S32x256x128 : S1x1x128.Broadcasts S32x256x128
  reduces_S32x256x128_S32x128 : S32x256x128.Reduces [1] S32x128
  dot_S32x256x3_S32x128x3_S32x256x128_2_2_1_1_0_0_wf : DotDims.WF S32x256x3 S32x128x3 S32x256x128 [2] [2] [1] [1] [0] [0]
  hrank0 : 0 < grid0.rank
  k0_mult1_dvd : ∀ i : grid0.Coords, 128 ∣ (k0_mult1 i).toNat
  k0_off1_inb : ∀ i : grid0.Coords, ∀ a, (k0_off1 i) a + S32x3x256.size a ≤ S32x3x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x3x4096.size a ≤ S32x3x4096.size a
  hwx0_0 : ∀ i : grid0.Coords, EltTy.bits .f32 = 32 ∨ (Rect.block (s := S32x3x4096) S32x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x1024.size a
  hwx0_1 : ∀ i : grid0.Coords, EltTy.bits .f32 = 32 ∨ (Rect.block (s := S3x1024) S3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x1024.size a
  hwx0_2 : ∀ i : grid0.Coords, EltTy.bits .f32 = 32 ∨ (Rect.block (s := S32x1024) S32x128.size (cc0_transform_2 i) (hinb0_2 i)).WholeWords (EltTy.packing .f32)

variable [Facts₀]

def dot_S32x256x3_S32x128x3_S32x256x128_2_2_1_1_0_0 : DotDims S32x256x3 S32x128x3 S32x256x128 where
  lhsContracting := [2]
  rhsContracting := [2]
  lhsNonContracting := [1]
  rhsNonContracting := [1]
  lhsBatch := [0]
  rhsBatch := [0]
  wf := dot_S32x256x3_S32x128x3_S32x256x128_2_2_1_1_0_0_wf

abbrev win0_0 : Pipeline.Window sig grid0 :=
  Pipeline.Window.ofSpec (Memref.whole main_v0) S32x3x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x4096x3 : Shape := ⟨3, ![32, 4096, 3]⟩
abbrev S1024x3 : Shape := ⟨2, ![1024, 3]⟩
abbrev S_ : Shape := ⟨0, ![]⟩
abbrev S32x4096 : Shape := ⟨2, ![32, 4096]⟩
abbrev S1024 : Shape := ⟨1, ![1024]⟩
abbrev S1024x32x4096 : Shape := ⟨3, ![1024, 32, 4096]⟩
abbrev S32x1024x4096 : Shape := ⟨3, ![32, 1024, 4096]⟩
abbrev S32x1x4096 : Shape := ⟨3, ![32, 1, 4096]⟩
abbrev S1x1024x1 : Shape := ⟨3, ![1, 1024, 1]⟩
abbrev S32x1024 : Shape := ⟨2, ![32, 1024]⟩

abbrev nBuf : Space → Nat
  | .hbm => 25
  | .vmem => 0
  | .smem => 0
  | _ => 0

abbrev bufTy : (tb : Table) → Fin (tcTables nBuf tb) → BufTy
  | .hbm, ⟨0, _⟩ => ⟨S32x4096x3, .f32⟩
  | .hbm, ⟨1, _⟩ => ⟨S1024x3, .f32⟩
  | .hbm, ⟨2, _⟩ => ⟨S32x4096x3, .f32⟩
  | .hbm, ⟨3, _⟩ => ⟨S_, .f32⟩
  | .hbm, ⟨4, _⟩ => ⟨S32x4096, .f32⟩
  | .hbm, ⟨5, _⟩ => ⟨S1024x3, .f32⟩
  | .hbm, ⟨6, _⟩ => ⟨S_, .f32⟩
  | .hbm, ⟨7, _⟩ => ⟨S1024, .f32⟩
  | .hbm, ⟨8, _⟩ => ⟨S1024x32x4096, .f32⟩
  | .hbm, ⟨9, _⟩ => ⟨S32x1024x4096, .f32⟩
  | .hbm, ⟨10, _⟩ => ⟨S32x1x4096, .f32⟩
  | .hbm, ⟨11, _⟩ => ⟨S_, .f32⟩
  | .hbm, ⟨12, _⟩ => ⟨S32x1024x4096, .f32⟩
  | .hbm, ⟨13, _⟩ => ⟨S32x1024x4096, .f32⟩
  | .hbm, ⟨14, _⟩ => ⟨S32x1024x4096, .f32⟩
  | .hbm, ⟨15, _⟩ => ⟨S32x1024x4096, .f32⟩
  | .hbm, ⟨16, _⟩ => ⟨S1x1024x1, .f32⟩
  | .hbm, ⟨17, _⟩ => ⟨S32x1024x4096, .f32⟩
  | .hbm, ⟨18, _⟩ => ⟨S32x1024x4096, .f32⟩
  | .hbm, ⟨19, _⟩ => ⟨S_, .f32⟩
  | .hbm, ⟨20, _⟩ => ⟨S32x1024x4096, .f32⟩
  | .hbm, ⟨21, _⟩ => ⟨S32x1024x4096, .f32⟩
  | .hbm, ⟨22, _⟩ => ⟨S32x1024x4096, .f32⟩
  | .hbm, ⟨23, _⟩ => ⟨S_, .f32⟩
  | .hbm, ⟨24, _⟩ => ⟨S32x1024, .f32⟩
  | _, _ => ⟨S32x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S32x4096x3_S32x4096_d2 : S32x4096x3.ReducesTo [2] S32x4096
  h_S_ : 0 < S_.numel
  reducesTo_S1024x3_S1024_d1 : S1024x3.ReducesTo [1] S1024
  transposes_S1024x32x4096_S32x1024x4096_1_0_2 : S1024x32x4096.Transposes [1, 0, 2] S32x1024x4096
  bcast_S32x4096_S32x1x4096_0_2 : S32x4096.BroadcastsInDim S32x1x4096 (![0, 2] : Fin 2 → Fin S32x1x4096.rank)
  bcast_S_S32x1024x4096 : S_.BroadcastsInDim S32x1024x4096 (![] : Fin 0 → Fin S32x1024x4096.rank)
  bcast_S32x1x4096_S32x1024x4096_0_1_2 : S32x1x4096.BroadcastsInDim S32x1024x4096 (![0, 1, 2] : Fin 3 → Fin S32x1024x4096.rank)
  bcast_S1024_S1x1024x1_1 : S1024.BroadcastsInDim S1x1024x1 (![1] : Fin 1 → Fin S1x1024x1.rank)
  bcast_S1x1024x1_S32x1024x4096_0_1_2 : S1x1024x1.BroadcastsInDim S32x1024x4096 (![0, 1, 2] : Fin 3 → Fin S32x1024x4096.rank)
  reducesTo_S32x1024x4096_S32x1024_d2 : S32x1024x4096.ReducesTo [2] S32x1024
  dot_S1024x3_S32x4096x3_S1024x32x4096_1_2_0_01_n_n_wf : DotDims.WF S1024x3 S32x4096x3 S1024x32x4096 [1] [2] [0] [0, 1] [] []

variable [Facts₀]

def dot_S1024x3_S32x4096x3_S1024x32x4096_1_2_0_01_n_n : DotDims S1024x3 S32x4096x3 S1024x32x4096 where
  lhsContracting := [1]
  rhsContracting := [2]
  lhsNonContracting := [0]
  rhsNonContracting := [0, 1]
  lhsBatch := []
  rhsBatch := []
  wf := dot_S1024x3_S32x4096x3_S1024x32x4096_1_2_0_01_n_n_wf

class Facts : Prop extends Facts₀ where

variable [Facts]
-- ==== Proof.Pieces.lean ====
/-
  What one grid point leaves behind, as the body's arithmetic of what it loaded.

  Whatever the case, the body ends by storing into the whole accumulator the arithmetic of three loads: the slab of
  256 points cut from the resident point array at the point's offset, the whole block of centres, and the accumulator
  itself. At the first point of a row of the grid the accumulator was first overwritten with zeros, so the third load
  reads zeros; at the other points it reads what the point before left. At the last point of a row the body also
  copies the accumulator it has just stored into the output block, so the output block holds the same value.
-/
import proofs.«160166_j36773509989121_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The slab of 256 points the body loads at a grid point: the resident point array read through the unit-stride
    rectangle [32, 3, 256] at the point's offset. -/
def slab (i : grid0.Coords) (x0 : Vec F S32x3x4096 .f32) : Vec F S32x3x256 .f32 :=
  View.ld x0 (Rect.unit (s := S32x3x4096) (k0_off1 i) S32x3x256.size (k0_off1_inb i))

theorem zeros2 : (![0, 0] : Fin 2 → Nat) = fun _ => 0 :=
  funext fun a => by match a with | ⟨0, _⟩ => rfl | ⟨1, _⟩ => rfl

/-- At the first point of a row: the accumulator ends at the arithmetic over zeros. -/
theorem sout_A (c : Dev nD) (i : grid0.Coords) (arg2 : Memref sig .tc .vmem S32x3x4096 .f32) (harg2 : arg2.IsWhole) (arg3 : Memref sig .tc .vmem S3x128 .f32) (harg3 : arg3.IsWhole) (arg4 : Memref sig .tc .vmem S32x128 .f32) (harg4 : arg4.IsWhole) (arg5 : Memref sig .tc .vmem S32x128 .f32) (harg5 : arg5.IsWhole) (hc0 : cond0_0 i) (hc1 : ¬cond0_1 i)
    (x0 : Vec F S32x3x4096 .f32) (x1 : Vec F S3x128 .f32) :
    sout0_A_0 c i arg2 harg2 arg3 harg3 arg4 harg4 arg5 harg5 hc0 hc1 x0 x1 = k0_pay2 (slab i x0) x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_run_names
  rw [View.canon_cons_unit_zero zeros2, View.readCov_unit_zero _ zeros2]
  simp only [View.readAt_eq_ld, harg2.read_unread, harg3.read_unread,
    View.ld_unit_zero (S := S3x128) zeros2]
  rfl

/-- At a middle point of a row: the accumulator ends at the arithmetic over what the point before left. -/
theorem sout_B (c : Dev nD) (i : grid0.Coords) (arg2 : Memref sig .tc .vmem S32x3x4096 .f32) (harg2 : arg2.IsWhole) (arg3 : Memref sig .tc .vmem S3x128 .f32) (harg3 : arg3.IsWhole) (arg4 : Memref sig .tc .vmem S32x128 .f32) (harg4 : arg4.IsWhole) (arg5 : Memref sig .tc .vmem S32x128 .f32) (harg5 : arg5.IsWhole) (hc0 : ¬cond0_0 i) (hc1 : ¬cond0_1 i)
    (x0 : Vec F S32x3x4096 .f32) (x1 : Vec F S3x128 .f32) (xs0 : Vec F S32x128 .f32) :
    sout0_B_0 c i arg2 harg2 arg3 harg3 arg4 harg4 arg5 harg5 hc0 hc1 x0 x1 xs0 = k0_pay2 (slab i x0) x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_run_names
  rw [View.canon_unit_zero zeros2]
  simp only [View.readAt_eq_ld, harg2.read_unread, harg3.read_unread, harg5.read_unread,
    View.ld_unit_zero (S := S3x128) zeros2, View.ld_unit_zero (S := S32x128) zeros2]
  rfl

/-- At the last point of a row: the accumulator likewise. -/
theorem sout_C (c : Dev nD) (i : grid0.Coords) (arg2 : Memref sig .tc .vmem S32x3x4096 .f32) (harg2 : arg2.IsWhole) (arg3 : Memref sig .tc .vmem S3x128 .f32) (harg3 : arg3.IsWhole) (arg4 : Memref sig .tc .vmem S32x128 .f32) (harg4 : arg4.IsWhole) (arg5 : Memref sig .tc .vmem S32x128 .f32) (harg5 : arg5.IsWhole) (hc0 : ¬cond0_0 i) (hc1 : cond0_1 i)
    (x0 : Vec F S32x3x4096 .f32) (x1 : Vec F S3x128 .f32) (xs0 : Vec F S32x128 .f32) :
    sout0_C_0 c i arg2 harg2 arg3 harg3 arg4 harg4 arg5 harg5 hc0 hc1 x0 x1 xs0 = k0_pay2 (slab i x0) x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_run_names
  rw [View.canon_unit_zero zeros2]
  simp only [View.readAt_eq_ld, harg2.read_unread, harg3.read_unread, harg5.read_unread,
    View.ld_unit_zero (S := S3x128) zeros2, View.ld_unit_zero (S := S32x128) zeros2]
  rfl

/-- At the last point of a row: the output block is a copy of the accumulator just stored. -/
theorem out_C (c : Dev nD) (i : grid0.Coords) (arg2 : Memref sig .tc .vmem S32x3x4096 .f32) (harg2 : arg2.IsWhole) (arg3 : Memref sig .tc .vmem S3x128 .f32) (harg3 : arg3.IsWhole) (arg4 : Memref sig .tc .vmem S32x128 .f32) (harg4 : arg4.IsWhole) (arg5 : Memref sig .tc .vmem S32x128 .f32) (harg5 : arg5.IsWhole) (hc0 : ¬cond0_0 i) (hc1 : cond0_1 i)
    (x0 : Vec F S32x3x4096 .f32) (x1 : Vec F S3x128 .f32) (xs0 : Vec F S32x128 .f32) :
    out0_C_2 c i arg2 harg2 arg3 harg3 arg4 harg4 arg5 harg5 hc0 hc1 x0 x1 xs0 = k0_pay2 (slab i x0) x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_run_names
  rw [View.canon_unit_zero zeros2, View.readCov_unit_zero _ zeros2]
  simp only [View.readAt_eq_ld, harg2.read_unread, harg3.read_unread, harg5.read_unread,
    View.ld_unit_zero (S := S3x128) zeros2, View.ld_unit_zero (S := S32x128) zeros2]
  rfl

end Cert.KernelIdeal.Pieces

end
-- ==== Proof.LibRealArith.lean ====
/-
  Real-number arithmetic inside the extended reals: the entries that are real numbers, the operations that keep
  them so, and the two identities of batch normalisation that hold once every entry is real.

  An extended real is a real number, +∞ or −∞. Sums, differences, products and maxima of reals are real; so is an
  exact sum of finitely many reals, hence a contraction (a matrix product, with or without an accumulator), a sum
  along axes, and a scatter-addition — each entry of the result is an entry of the operand plus the sum of the
  updates that land on it. A gather only re-reads entries of its operand. A quotient by a real that is not zero is
  real, and division by a nonzero real is the product with its reciprocal on every extended real, so a product
  with `1 / c` is the quotient by `c`.

  Batch normalisation: a column h_1 … h_N (N > 0) has mean μ = (Σ h_i) / N. Its centred variance
  (Σ (h_i − μ)·(h_i − μ)) / N is its moment variance (Σ h_i·h_i) / N − μ·μ, because
  Σ (h_i − μ)² = Σ h_i² − 2 μ Σ h_i + N μ² and Σ h_i = N μ; and (x − μ)·r·γ + β = x·(γ·r) + (β − μ·(γ·r)).
  Both are identities of real numbers; subtraction and distributivity fail at the infinities, so on the extended
  reals they are stated for real entries.
-/
import Mathlib
import Idealize.ShloMosaic.PureOps.Ideal
import Idealize.ShloMosaic.PureOps.Ideal.Laws

noncomputable section

namespace Cert.LibRealArith

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of reals is real, and is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real by a nonzero real is the real quotient. -/
theorem div_coe_coe (a : ℝ) {c : ℝ} (hc : c ≠ 0) : Ideal.div (a : EReal) (c : EReal) = ((a / c : ℝ) : EReal) := by
  rw [Ideal.div_coe hc, ← EReal.coe_mul]; congr 1; field_simp

theorem IsReal.div_coe {x : EReal} (hx : IsReal x) {c : ℝ} (hc : c ≠ 0) : IsReal (Ideal.div x (c : EReal)) := by
  obtain ⟨a, rfl⟩ := hx; exact ⟨a / c, div_coe_coe a hc⟩

/-- The product with the reciprocal of a nonzero real is the quotient by it, on every extended real. -/
theorem mul_one_div (x : EReal) {c : ℝ} (hc : c ≠ 0) :
    x * Ideal.div 1 (c : EReal) = Ideal.div x (c : EReal) := by
  rw [Ideal.div_coe hc x, Ideal.div_coe hc 1, one_mul]

/-- The reciprocal square root of a positive real is a positive real. -/
theorem rsqrt_coe_pos {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

/-! ## The two variances -/

/-- Over the reals: the centred second moment is the second moment minus the squared mean. -/
theorem real_var_eq {ι : Type*} [Fintype ι] (f : ι → ℝ) {n : ℝ} (hn : n ≠ 0) (hcard : (Fintype.card ι : ℝ) = n) :
    (∑ i, (f i - (∑ j, f j) / n) * (f i - (∑ j, f j) / n)) / n
      = (∑ i, f i * f i) / n - (∑ j, f j) / n * ((∑ j, f j) / n) := by
  have h1 : ∀ i, (f i - (∑ j, f j) / n) * (f i - (∑ j, f j) / n)
      = f i * f i - 2 * ((∑ j, f j) / n) * f i + ((∑ j, f j) / n) * ((∑ j, f j) / n) := fun i => by ring
  simp only [h1, Finset.sum_add_distrib, Finset.sum_sub_distrib, ← Finset.mul_sum, Finset.sum_const,
    Finset.card_univ, nsmul_eq_mul, hcard]
  field_simp
  ring

/-- On the extended reals, for a column of real entries and a real count `n ≠ 0` equal to the number of rows: the
    centred variance (mean subtracted, squared, summed, divided) is the moment variance (mean of squares minus the
    squared mean). -/
theorem var_eq {ι : Type*} [Fintype ι] (h : ι → EReal) (hh : ∀ i, IsReal (h i)) {n : ℝ} (hn : n ≠ 0)
    (hcard : (Fintype.card ι : ℝ) = n) :
    Ideal.div (∑ i, (h i - Ideal.div (∑ j, h j) (n : EReal)) * (h i - Ideal.div (∑ j, h j) (n : EReal))) (n : EReal)
      = Ideal.div (∑ i, h i * h i) (n : EReal)
          - Ideal.div (∑ j, h j) (n : EReal) * Ideal.div (∑ j, h j) (n : EReal) := by
  choose f hf using hh
  have hfun : h = fun i => ((f i : ℝ) : EReal) := funext hf
  subst hfun
  simp only [sum_coe, div_coe_coe _ hn, ← EReal.coe_sub, ← EReal.coe_mul]
  exact congrArg _ (real_var_eq f hn hcard)

/-! ## The two normalisations -/

/-- Over real entries: centre, scale by `r`, by `γ`, shift by `β` — or scale by `γ·r` and shift by `β − μ·(γ·r)`. -/
theorem affine_eq {x μ r γ β : EReal} (hx : IsReal x) (hμ : IsReal μ) (hr : IsReal r) (hγ : IsReal γ) (hβ : IsReal β) :
    (x - μ) * r * γ + β = x * (γ * r) + (β - μ * (γ * r)) := by
  obtain ⟨a, rfl⟩ := hx; obtain ⟨m, rfl⟩ := hμ; obtain ⟨s, rfl⟩ := hr; obtain ⟨g, rfl⟩ := hγ; obtain ⟨b, rfl⟩ := hβ
  simp only [← EReal.coe_sub, ← EReal.coe_mul, ← EReal.coe_add]
  congr 1; ring

/-! ## Arrays of real entries -/

/-- Every entry of the array is a real number. -/
def AllReal {ι : Type*} (x : ι → EReal) : Prop := ∀ i, IsReal (x i)

theorem AllReal.add {ι : Type*} {x y : ι → EReal} (hx : AllReal x) (hy : AllReal y) : AllReal fun i => x i + y i :=
  fun i => (hx i).add (hy i)
theorem AllReal.sub {ι : Type*} {x y : ι → EReal} (hx : AllReal x) (hy : AllReal y) : AllReal fun i => x i - y i :=
  fun i => (hx i).sub (hy i)
theorem AllReal.mul {ι : Type*} {x y : ι → EReal} (hx : AllReal x) (hy : AllReal y) : AllReal fun i => x i * y i :=
  fun i => (hx i).mul (hy i)
theorem AllReal.max {ι : Type*} {x y : ι → EReal} (hx : AllReal x) (hy : AllReal y) : AllReal fun i => max (x i) (y i) :=
  fun i => (hx i).max (hy i)
/-- Re-reading entries (a gather, a transpose, a slice, a broadcast) keeps them real. -/
theorem AllReal.comp {ι κ : Type*} {x : ι → EReal} (hx : AllReal x) (f : κ → ι) : AllReal fun k => x (f k) :=
  fun k => hx (f k)

/-- A gather's entries are entries of its operand. -/
theorem gather {s si t : Shape} {w : Nat} (d : GatherDims s si t) {x : s.Idx → EReal} (hx : AllReal x) (idx : IVec si w) :
    AllReal (Host.gather d x idx) := fun j => hx _

/-- A scatter-addition of real updates onto a real operand is real: an entry is the operand's plus a finite sum of updates. -/
theorem hostScatterAdd {s si su : Shape} (d : ScatterDims s si su) {w : Nat} {x : s.Idx → EReal} (hx : AllReal x)
    (idx : IVec si w) {upd : su.Idx → EReal} (hu : AllReal upd) : AllReal (Ideal.hostScatterAdd d x idx upd) :=
  fun i => (hx i).add (IsReal.sum _ fun j _ => hu j)

/-- A host sum along axes of a real array from a real initial value is real. -/
theorem hostReduceAdd {s : Shape} {axes : List (Fin s.rank)} {t : Shape} (h : s.ReducesTo axes t) {x : s.Idx → EReal}
    (hx : AllReal x) {init : EReal} (hi : IsReal init) : AllReal (Ideal.hostReduceAdd h x init) :=
  fun j => hi.add (IsReal.sum _ fun i _ => hx i)

/-- A vector sum along axes of a real array is real. -/
theorem reduceAdd {s : Shape} {axes : List (Fin s.rank)} {t : Shape} (h : s.Reduces axes t) {x : s.Idx → EReal}
    (hx : AllReal x) : AllReal (Ideal.reduceAdd h x) :=
  fun j => IsReal.sum _ fun i _ => hx i

/-- A contraction of real operands into a real accumulator is real. -/
theorem matmul {sl sr so : Shape} (d : DotDims sl sr so) {lhs : sl.Idx → EReal} {rhs : sr.Idx → EReal} {acc : so.Idx → EReal}
    (hl : AllReal lhs) (hr : AllReal rhs) (ha : AllReal acc) : AllReal (Ideal.matmul d lhs rhs acc) :=
  fun j => (ha j).add (IsReal.sum _ fun k _ => (hl _).mul (hr _))

/-- A sum of products of real factors is real (a contraction with no accumulator, read at an entry). -/
theorem sum_mul {κ : Type*} [Fintype κ] {L R : κ → EReal} (hL : AllReal L) (hR : AllReal R) : IsReal (∑ k, L k * R k) :=
  IsReal.sum _ fun k _ => (hL k).mul (hR k)

/-- A quotient of a real array by an array of nonzero reals is real. -/
theorem div {ι : Type*} {x y : ι → EReal} (hx : AllReal x) (hy : ∀ i, ∃ r : ℝ, r ≠ 0 ∧ y i = (r : EReal)) :
    AllReal fun i => Ideal.div (x i) (y i) := fun i => by
  obtain ⟨r, hr, e⟩ := hy i
  show IsReal (Ideal.div (x i) (y i))
  rw [e]; exact (hx i).div_coe hr

/-- The larger of a real and one is a real that is at least one, so nonzero: the divisor of a mean over a count that
    may be zero. -/
theorem max_one_ne_zero {x : EReal} (hx : IsReal x) : ∃ r : ℝ, r ≠ 0 ∧ max x 1 = (r : EReal) := by
  obtain ⟨a, rfl⟩ := hx
  refine ⟨Max.max a 1, ?_, ?_⟩
  · have : (1 : ℝ) ≤ Max.max a 1 := le_max_right a 1
    intro h; rw [h] at this; norm_num at this
  · rw [show (1 : EReal) = ((1 : ℝ) : EReal) from rfl]
    exact (EReal.coe_strictMono.monotone.map_max).symm

end Cert.LibRealArith

end
-- ==== Proof.LibHalves.lean ====
/-
  A few binary32 patterns as reals, and the two identities that let a product with 1/2 or 1/4 meet a quotient by 2 or
  4 on every extended real, the infinities included: division by a nonzero real is the product with its reciprocal.
-/
import Mathlib
import Idealize.ShloMosaic.PureOps.Ideal

noncomputable section

namespace Cert.LibHalves

open Idealize.ShloMosaic

/-- The pattern of 0.5. -/
theorem ofBits_half : Ideal.ofBits .f32 0x3F000000#32 = ((1 / 2 : ℝ) : EReal) := by
  simp [Ideal.ofBits, Ideal.ieee, -EReal.coe_mul] <;> norm_num

/-- The pattern of 0.25. -/
theorem ofBits_quarter : Ideal.ofBits .f32 0x3E800000#32 = ((1 / 4 : ℝ) : EReal) := by
  simp [Ideal.ofBits, Ideal.ieee, -EReal.coe_mul] <;> norm_num

/-- The pattern of 2. -/
theorem ofBits_two : Ideal.ofBits .f32 0x40000000#32 = ((2 : ℝ) : EReal) := by
  simp [Ideal.ofBits, Ideal.ieee, -EReal.coe_mul] <;> norm_num

/-- The pattern of 4. -/
theorem ofBits_four : Ideal.ofBits .f32 0x40800000#32 = ((4 : ℝ) : EReal) := by
  simp [Ideal.ofBits, Ideal.ieee, -EReal.coe_mul] <;> norm_num

/-- The pattern of 1. -/
theorem ofBits_one : Ideal.ofBits .f32 0x3F800000#32 = ((1 : ℝ) : EReal) := by
  simp [Ideal.ofBits, Ideal.ieee, -EReal.coe_mul] <;> norm_num

/-- The pattern of +0. -/
theorem ofBits_zero : Ideal.ofBits .f32 0x00000000#32 = 0 := by
  simp [Ideal.ofBits, Ideal.ieee]

/-- A product with the pattern of 1/2 is the quotient by the pattern of 2, for every extended real. -/
theorem mul_half_eq_div_two (x : EReal) :
    x * Ideal.ofBits .f32 0x3F000000#32 = Ideal.div x (Ideal.ofBits .f32 0x40000000#32) := by
  rw [ofBits_half, ofBits_two, Ideal.div_coe (by norm_num : (2 : ℝ) ≠ 0)]

/-- A product with the pattern of 1/4 is the quotient by the pattern of 4, for every extended real. -/
theorem mul_quarter_eq_div_four (x : EReal) :
    x * Ideal.ofBits .f32 0x3E800000#32 = Ideal.div x (Ideal.ofBits .f32 0x40800000#32) := by
  rw [ofBits_quarter, ofBits_four, Ideal.div_coe (by norm_num : (4 : ℝ) ≠ 0)]

/-- The pattern `0x38D1B717` (1e-4 rounded to binary32) is a positive real. -/
theorem ofBits_e4_pos : ∃ r : ℝ, 0 < r ∧ Ideal.ofBits .f32 0x38D1B717#32 = (r : EReal) := by
  refine ⟨13743895 * (2 : ℝ) ^ (-37 : ℤ), by positivity, ?_⟩
  simp [Ideal.ofBits, Ideal.ieee, -EReal.coe_mul] <;> norm_num

end Cert.LibHalves

end
-- ==== Proof.Spec.lean ====
/-
  The Gaussian kernel sum, as one function of the two argument arrays.

  For a point x and a centre s in three coordinates both programs form the squared distance by the expansion
  |x|² − 2·(x·s) + |s|², each squared norm and the dot product a sum over the three coordinates (the norms started
  from a zero word), multiply it by −1/2, exponentiate, and add the results over the 4096 points of a batch row.
  One program first replaces the expanded distance by its maximum with zero. For real coordinates the expansion
  equals Σ_d (x_d − s_d)², a sum of squares, so it is never negative and the maximum changes nothing. At an
  infinite coordinate the expansion meets ∞ − ∞ and the two readings part, which is why the law is stated for real
  entries only.
-/
import Mathlib
import Idealize.ShloMosaic.PureOps.Ideal
import Idealize.ShloMosaic.Lib.ValueIdx
import proofs.«160166_j36773509989121_2_alg».proof.Proof.LibRealArith
import proofs.«160166_j36773509989121_2_alg».proof.Proof.LibHalves

open scoped BigOperators

noncomputable section

namespace Cert.Rbf

open Idealize.ShloMosaic Idealize.ShloMosaic.ValueIdx Cert.LibRealArith

/-- The squared norm of a triple, as both programs compute it: the zero word plus the sum of the squares. -/
def sqNorm (v : Fin 3 → EReal) : EReal := Ideal.ofBits .f32 0x00000000#32 + ∑ d, v d * v d

/-- The dot product of two triples. -/
def dotProd (u v : Fin 3 → EReal) : EReal := ∑ d, u d * v d

/-- The squared distance in its expanded form |x|² − 2·(x·s) + |s|², grouped as the programs group it. -/
def dist2 (x s : Fin 3 → EReal) : EReal := sqNorm x - Ideal.ofBits .f32 0x40000000#32 * dotProd x s + sqNorm s

/-- The Gaussian term exp(−½·d²). -/
def gauss (x s : Fin 3 → EReal) : EReal := Ideal.exp (Ideal.ofBits .f32 0xBF000000#32 * dist2 x s)

/-- The same with the expanded distance first replaced by its maximum with zero. -/
def gaussClamped (x s : Fin 3 → EReal) : EReal :=
  Ideal.exp (Ideal.ofBits .f32 0xBF000000#32 * max (dist2 x s) (Ideal.ofBits .f32 0x00000000#32))

/-- A sum of products of real coordinates is the real sum of products. -/
theorem sum_mul_coe (a b : Fin 3 → ℝ) :
    ∑ d : Fin 3, ((a d : ℝ) : EReal) * ((b d : ℝ) : EReal) = ((∑ d, a d * b d : ℝ) : EReal) := by
  rw [← sum_coe]
  exact Finset.sum_congr rfl fun d _ => (EReal.coe_mul _ _).symm

/-- For real coordinates the expanded distance is the sum of the squared coordinate differences. -/
theorem dist2_coe (a b : Fin 3 → ℝ) :
    dist2 (fun d => ((a d : ℝ) : EReal)) (fun d => ((b d : ℝ) : EReal))
      = ((∑ d, (a d - b d) * (a d - b d) : ℝ) : EReal) := by
  unfold dist2 sqNorm dotProd
  rw [sum_mul_coe, sum_mul_coe, sum_mul_coe, Cert.LibHalves.ofBits_zero, Cert.LibHalves.ofBits_two, zero_add,
    zero_add, ← EReal.coe_mul, ← EReal.coe_sub, ← EReal.coe_add]
  refine congrArg _ ?_
  simp only [Fin.sum_univ_three]
  ring

/-- For real coordinates the expanded distance is not negative. -/
theorem dist2_nonneg {x s : Fin 3 → EReal} (hx : ∀ d, IsReal (x d)) (hs : ∀ d, IsReal (s d)) :
    Ideal.ofBits .f32 0x00000000#32 ≤ dist2 x s := by
  choose a ha using hx
  choose b hb using hs
  obtain rfl : x = fun d => ((a d : ℝ) : EReal) := funext ha
  obtain rfl : s = fun d => ((b d : ℝ) : EReal) := funext hb
  rw [dist2_coe, Cert.LibHalves.ofBits_zero]
  exact_mod_cast Finset.sum_nonneg fun d _ => mul_self_nonneg (a d - b d)

/-- For real coordinates the maximum with zero changes nothing: the two Gaussian terms agree. -/
theorem gaussClamped_eq {x s : Fin 3 → EReal} (hx : ∀ d, IsReal (x d)) (hs : ∀ d, IsReal (s d)) :
    gaussClamped x s = gauss x s := by
  unfold gaussClamped gauss
  rw [max_eq_left (dist2_nonneg hx hs)]

/-- THE RESULT at row b and centre m: the zero word plus the sum over the 4096 points n of the Gaussian term of point
    (b, n) and centre m. -/
def Gat (X : (⟨3, ![32, 4096, 3]⟩ : Shape).Idx → EReal) (S : (⟨2, ![1024, 3]⟩ : Shape).Idx → EReal) (b : Fin 32)
    (m : Fin 1024) : EReal :=
  Ideal.ofBits .f32 0x00000000#32 + ∑ n : Fin 4096, gauss (fun d => X (ix3 b n d)) (fun d => S (ix2 m d))

/-- THE RESULT as an array over (row, centre). -/
def G (X : (⟨3, ![32, 4096, 3]⟩ : Shape).Idx → EReal) (S : (⟨2, ![1024, 3]⟩ : Shape).Idx → EReal) :
    (⟨2, ![32, 1024]⟩ : Shape).Idx → EReal :=
  fun i => Gat X S (i 0) (i 1)

theorem G_apply (X : (⟨3, ![32, 4096, 3]⟩ : Shape).Idx → EReal) (S : (⟨2, ![1024, 3]⟩ : Shape).Idx → EReal) (b : Fin 32)
    (m : Fin 1024) : G X S (ix2 b m) = Gat X S b m := rfl

end Cert.Rbf

end
-- ==== Proof.Payload.lean ====
/-
  One grid point's arithmetic, read at an index.

  At a grid point the body holds a slab of 256 points for each of the 32 batch rows, laid [32, 3, 256] (row, coordinate,
  point), and a block of 128 centres laid [3, 128] (coordinate, centre). It forms the squared norms by summing the
  squares over the coordinate axis, the dot products by one batched contraction over the coordinate axis after moving
  that axis last on both operands (the centres repeated for every batch row), spreads the norms over the
  [32, 256, 128] array of (row, point, centre), forms |x|² − 2·(x·s) + |s|², takes the maximum with zero, multiplies by
  −1/2, exponentiates, sums over the 256 points and adds the result to what the accumulator held. Read at (row b,
  centre m) the new accumulator is therefore the old one plus the sum over the slab's 256 points n of the clamped
  Gaussian term of point (b, ·, n) and centre (·, m). Every re-laying only re-reads entries; the two sums over the
  coordinate axis start from the neutral element, so they are the bare sums, and the zero word the specification starts
  its norms from is the extended real zero.
-/
import proofs.«160166_j36773509989121_2_alg».proof.Proof.Gen.KernelIdeal.Skeleton
import Idealize.ShloMosaic.Lib.ValueIdx
import Idealize.ShloMosaic.Lib.Pipeline.Value
import Idealize.ShloMosaic.PureOps.Ideal.Laws
import proofs.«160166_j36773509989121_2_alg».proof.Proof.Spec

open scoped BigOperators

noncomputable section

namespace Cert.KernelIdeal.Payload

open Cert.KernelIdeal Cert.KernelIdeal.Gen Idealize.ShloMosaic Idealize.ShloMosaic.ValueIdx
open Cert.Rbf

/-! ## The stages -/

/-- The squared norms of the slab's points: the squares summed over the coordinate axis. -/
def pointNorms (x : FVec Ideal S32x3x256 .f32) : FVec Ideal S32x256 .f32 :=
  multiReduction .add [1] S32x256 (mulf x x) 0x00000000#32 reduces_S32x3x256_S32x256 (.inl rfl) rfl

/-- The squared norms of the block's centres. -/
def centreNorms (s : FVec Ideal S3x128 .f32) : FVec Ideal S128 .f32 :=
  multiReduction .add [0] S128 (mulf s s) 0x00000000#32 reduces_S3x128_S128 (.inl rfl) rfl

/-- The centres with the coordinate axis last, repeated for every batch row. -/
def centresPerRow (s : FVec Ideal S3x128 .f32) : FVec Ideal S32x128x3 .f32 :=
  broadcastTo S32x128x3 (shapeCast S1x128x3 (shapeCast S1x128x3 (transpose S128x3 [1, 0] s transposes_S3x128_p1_0_S128x3)
    shapeCasts_S128x3_S1x128x3) shapeCasts_S1x128x3_S1x128x3) broadcasts_S1x128x3_S32x128x3

/-- The dot products of every point of the slab with every centre of the block: a batched contraction into zero. -/
def crossTerms (x : FVec Ideal S32x3x256 .f32) (s : FVec Ideal S3x128 .f32) : FVec Ideal S32x256x128 .f32 :=
  matmul dot_S32x256x3_S32x128x3_S32x256x128_2_2_1_1_0_0 none (transpose S32x256x3 [0, 2, 1] x transposes_S32x3x256_p0_2_1_S32x256x3) (centresPerRow s)
    (constant S32x256x128 .f32 0x00000000#32)

/-- The expanded squared distances over (row, point, centre). -/
def dists (x : FVec Ideal S32x3x256 .f32) (s : FVec Ideal S3x128 .f32) : FVec Ideal S32x256x128 .f32 :=
  addf (subf (broadcastTo S32x256x128 (shapeCast S32x256x1 (pointNorms x) shapeCasts_S32x256_S32x256x1)
        broadcasts_S32x256x1_S32x256x128)
      (mulf (broadcast S32x256x128 (Scalar.ofBits (F := Ideal) .f32 0x40000000#32)) (crossTerms x s)))
    (broadcastTo S32x256x128 (shapeCast S1x1x128 (centreNorms s) shapeCasts_S128_S1x1x128)
      broadcasts_S1x1x128_S32x256x128)

/-- The clamped Gaussian terms over (row, point, centre). -/
def terms (x : FVec Ideal S32x3x256 .f32) (s : FVec Ideal S3x128 .f32) : FVec Ideal S32x256x128 .f32 :=
  exp (mulf (broadcast S32x256x128 (Scalar.ofBits (F := Ideal) .f32 0xBF000000#32))
    (maximumf (dists x s) (broadcast S32x256x128 (Scalar.ofBits (F := Ideal) .f32 0x00000000#32))))

/-- The terms summed over the slab's points. -/
def blockSums (x : FVec Ideal S32x3x256 .f32) (s : FVec Ideal S3x128 .f32) : FVec Ideal S32x128 .f32 :=
  multiReduction .add [1] S32x128 (terms x s) 0x00000000#32 reduces_S32x256x128_S32x128 (.inl rfl) rfl

/-- The body's arithmetic is the accumulator plus the block sums (the three shape changes to the same shape kept as printed). -/
theorem pay2_eq (v6 : FVec Ideal S32x3x256 .f32) (v8 : FVec Ideal S3x128 .f32) (v33 : FVec Ideal S32x128 .f32) :
    k0_pay2 (F := Ideal) v6 v8 v33
      = shapeCast S32x128 (addf v33 (blockSums (shapeCast S32x3x256 v6 shapeCasts_S32x3x256_S32x3x256)
          (shapeCast S3x128 v8 shapeCasts_S3x128_S3x128))) shapeCasts_S32x128_S32x128 := rfl

/-! ## The re-layings, read at coordinates -/

/-- The point norms given a trailing unit axis and spread over the centres: entry (b, n, m) is the norm of point (b, n). -/
theorem spread_points (v : FVec Ideal S32x256 .f32) (b : Fin 32) (n : Fin 256) (m : Fin 128) :
    broadcastTo S32x256x128 (shapeCast S32x256x1 v shapeCasts_S32x256_S32x256x1) broadcasts_S32x256x1_S32x256x128
      (ix3 b n m) = v (ix2 b n) := by
  refine (broadcastTo_apply _ broadcasts_S32x256x1_S32x256x128 (ix3 b n m) (ix3 b n (0 : Fin 1)) (fun a => by
    match a with
    | ⟨0, _⟩ => show b.val = if (32 : Nat) = 1 then 0 else b.val; rw [if_neg (by decide)]
    | ⟨1, _⟩ => show n.val = if (256 : Nat) = 1 then 0 else n.val; rw [if_neg (by decide)]
    | ⟨2, _⟩ => show (0 : Nat) = if (1 : Nat) = 1 then 0 else m.val; rw [if_pos rfl])).trans ?_
  refine shapeCast_apply v shapeCasts_S32x256_S32x256x1 _ _ ?_
  rw [Shape.rowMajor_val_two, Shape.rowMajor_val_three]
  show b.val * 256 + n.val = (b.val * 256 + n.val) * 1 + 0
  omega

/-- The centre norms given two leading unit axes and spread over rows and points: entry (b, n, m) is the norm of centre m. -/
theorem spread_centres (v : FVec Ideal S128 .f32) (b : Fin 32) (n : Fin 256) (m : Fin 128) :
    broadcastTo S32x256x128 (shapeCast S1x1x128 v shapeCasts_S128_S1x1x128) broadcasts_S1x1x128_S32x256x128
      (ix3 b n m) = v (ix1 m) := by
  refine (broadcastTo_apply _ broadcasts_S1x1x128_S32x256x128 (ix3 b n m) (ix3 (0 : Fin 1) (0 : Fin 1) m) (fun a => by
    match a with
    | ⟨0, _⟩ => show (0 : Nat) = if (1 : Nat) = 1 then 0 else b.val; rw [if_pos rfl]
    | ⟨1, _⟩ => show (0 : Nat) = if (1 : Nat) = 1 then 0 else n.val; rw [if_pos rfl]
    | ⟨2, _⟩ => show m.val = if (128 : Nat) = 1 then 0 else m.val; rw [if_neg (by decide)])).trans ?_
  refine shapeCast_apply v shapeCasts_S128_S1x1x128 _ _ ?_
  rw [Shape.rowMajor_val_one, Shape.rowMajor_val_three]
  show m.val = ((0 : Nat) * 1 + 0) * 128 + m.val
  omega

/-- The centres per row: entry (b, m, d) is coordinate d of centre m. -/
theorem centresPerRow_apply (s : FVec Ideal S3x128 .f32) (b : Fin 32) (m : Fin 128) (d : Fin 3) :
    centresPerRow s (ix3 b m d) = s (ix2 d m) := by
  unfold centresPerRow
  rw [shapeCast_self]
  refine (broadcastTo_apply _ broadcasts_S1x128x3_S32x128x3 (ix3 b m d) (ix3 (0 : Fin 1) m d) (fun a => by
    match a with
    | ⟨0, _⟩ => show (0 : Nat) = if (1 : Nat) = 1 then 0 else b.val; rw [if_pos rfl]
    | ⟨1, _⟩ => show m.val = if (128 : Nat) = 1 then 0 else m.val; rw [if_neg (by decide)]
    | ⟨2, _⟩ => show d.val = if (3 : Nat) = 1 then 0 else d.val; rw [if_neg (by decide)])).trans ?_
  refine (shapeCast_apply _ shapeCasts_S128x3_S1x128x3 (ix3 (0 : Fin 1) m d) (ix2 m d) (by
    rw [Shape.rowMajor_val_two, Shape.rowMajor_val_three]
    show m.val * 3 + d.val = ((0 : Nat) * 128 + m.val) * 3 + d.val
    omega)).trans ?_
  exact transpose_apply [1, 0] s transposes_S3x128_p1_0_S128x3 (ix2 m d) (ix2 d m) (fun a => by
    match a with
    | ⟨0, _⟩ => rfl
    | ⟨1, _⟩ => rfl)

/-- The slab with the coordinate axis last: entry (b, n, d) is coordinate d of point (b, n). -/
theorem pointsLast_apply (x : FVec Ideal S32x3x256 .f32) (b : Fin 32) (n : Fin 256) (d : Fin 3) :
    transpose S32x256x3 [0, 2, 1] x transposes_S32x3x256_p0_2_1_S32x256x3 (ix3 b n d) = x (ix3 b d n) :=
  transpose_apply [0, 2, 1] x transposes_S32x3x256_p0_2_1_S32x256x3 (ix3 b n d) (ix3 b d n) (fun a => by
    match a with
    | ⟨0, _⟩ => rfl
    | ⟨1, _⟩ => rfl
    | ⟨2, _⟩ => rfl)

/-! ## The sums over the coordinate axis -/

/-- The norm of point (b, n): the sum over the three coordinates of the squares. -/
theorem pointNorms_apply (x : FVec Ideal S32x3x256 .f32) (b : Fin 32) (n : Fin 256) :
    pointNorms x (ix2 b n) = ∑ d : Fin 3, x (ix3 b d n) * x (ix3 b d n) := by
  unfold pointNorms
  refine (Ideal.multiReduction_add_single (mulf x x) 0x00000000#32 reduces_S32x3x256_S32x256 (.inl rfl) rfl
    (ix2 b n)).trans ?_
  refine Finset.sum_congr rfl fun d _ => ?_
  have e : reduces_S32x3x256_S32x256.lift (ix2 b n) d = ix3 b d n :=
    funext fun a => Fin.ext (by match a with | ⟨0, _⟩ => rfl | ⟨1, _⟩ => rfl | ⟨2, _⟩ => rfl)
  rw [e]
  rfl

/-- The norm of centre m. -/
theorem centreNorms_apply (s : FVec Ideal S3x128 .f32) (m : Fin 128) :
    centreNorms s (ix1 m) = ∑ d : Fin 3, s (ix2 d m) * s (ix2 d m) := by
  unfold centreNorms
  refine (Ideal.multiReduction_add_single (mulf s s) 0x00000000#32 reduces_S3x128_S128 (.inl rfl) rfl
    (ix1 m)).trans ?_
  refine Finset.sum_congr rfl fun d _ => ?_
  have e : reduces_S3x128_S128.lift (ix1 m) d = ix2 d m :=
    funext fun a => Fin.ext (by match a with | ⟨0, _⟩ => rfl | ⟨1, _⟩ => rfl)
  rw [e]
  rfl

/-! ## The batched contraction -/

theorem lhs_axis0 (j : S32x256x128.Idx) (q : dot_S32x256x3_S32x128x3_S32x256x128_2_2_1_1_0_0.contr.Idx) : (dot_S32x256x3_S32x128x3_S32x256x128_2_2_1_1_0_0.lhsIdx j q 0).val = (j 0).val := by
  unfold DotDims.lhsIdx
  rw [dif_pos (show (0 : Fin S32x256x3.rank) ∈ dot_S32x256x3_S32x128x3_S32x256x128_2_2_1_1_0_0.lhsBatch by decide)]
  rfl
theorem lhs_axis1 (j : S32x256x128.Idx) (q : dot_S32x256x3_S32x128x3_S32x256x128_2_2_1_1_0_0.contr.Idx) : (dot_S32x256x3_S32x128x3_S32x256x128_2_2_1_1_0_0.lhsIdx j q 1).val = (j 1).val := by
  unfold DotDims.lhsIdx
  rw [dif_neg (show ¬(1 : Fin S32x256x3.rank) ∈ dot_S32x256x3_S32x128x3_S32x256x128_2_2_1_1_0_0.lhsBatch by decide),
    dif_pos (show (1 : Fin S32x256x3.rank) ∈ dot_S32x256x3_S32x128x3_S32x256x128_2_2_1_1_0_0.lhsNonContracting by decide)]
  rfl
theorem lhs_axis2 (j : S32x256x128.Idx) (q : dot_S32x256x3_S32x128x3_S32x256x128_2_2_1_1_0_0.contr.Idx) :
    (dot_S32x256x3_S32x128x3_S32x256x128_2_2_1_1_0_0.lhsIdx j q 2).val = (q ⟨0, by decide⟩).val :=
  dot_S32x256x3_S32x128x3_S32x256x128_2_2_1_1_0_0.lhsIdx_val_of_single rfl j q
theorem rhs_axis0 (j : S32x256x128.Idx) (q : dot_S32x256x3_S32x128x3_S32x256x128_2_2_1_1_0_0.contr.Idx) : (dot_S32x256x3_S32x128x3_S32x256x128_2_2_1_1_0_0.rhsIdx j q 0).val = (j 0).val := by
  unfold DotDims.rhsIdx
  rw [dif_pos (show (0 : Fin S32x128x3.rank) ∈ dot_S32x256x3_S32x128x3_S32x256x128_2_2_1_1_0_0.rhsBatch by decide)]
  rfl
theorem rhs_axis1 (j : S32x256x128.Idx) (q : dot_S32x256x3_S32x128x3_S32x256x128_2_2_1_1_0_0.contr.Idx) : (dot_S32x256x3_S32x128x3_S32x256x128_2_2_1_1_0_0.rhsIdx j q 1).val = (j 2).val := by
  unfold DotDims.rhsIdx
  rw [dif_neg (show ¬(1 : Fin S32x128x3.rank) ∈ dot_S32x256x3_S32x128x3_S32x256x128_2_2_1_1_0_0.rhsBatch by decide),
    dif_pos (show (1 : Fin S32x128x3.rank) ∈ dot_S32x256x3_S32x128x3_S32x256x128_2_2_1_1_0_0.rhsNonContracting by decide)]
  rfl
theorem rhs_axis2 (j : S32x256x128.Idx) (q : dot_S32x256x3_S32x128x3_S32x256x128_2_2_1_1_0_0.contr.Idx) :
    (dot_S32x256x3_S32x128x3_S32x256x128_2_2_1_1_0_0.rhsIdx j q 2).val = (q ⟨0, by decide⟩).val :=
  dot_S32x256x3_S32x128x3_S32x256x128_2_2_1_1_0_0.rhsIdx_val_of_single rfl j q

/-- The dot product of point (b, n) with centre m, as a sum over the three coordinates. -/
theorem crossTerms_apply (x : FVec Ideal S32x3x256 .f32) (s : FVec Ideal S3x128 .f32) (b : Fin 32) (n : Fin 256)
    (m : Fin 128) :
    crossTerms x s (ix3 b n m) = ∑ d : Fin 3, x (ix3 b d n) * s (ix2 d m) := by
  unfold crossTerms
  simp only [matmul]
  rw [Ideal.matmul_constant_zero_apply, ← Equiv.sum_comp (ValueIdx.contrEquiv1 dot_S32x256x3_S32x128x3_S32x256x128_2_2_1_1_0_0 3 rfl rfl).symm]
  refine Finset.sum_congr rfl fun k _ => ?_
  have hk := ValueIdx.contrEquiv1_symm_val dot_S32x256x3_S32x128x3_S32x256x128_2_2_1_1_0_0 3 rfl rfl k
  have el : dot_S32x256x3_S32x128x3_S32x256x128_2_2_1_1_0_0.lhsIdx (ix3 b n m) ((ValueIdx.contrEquiv1 dot_S32x256x3_S32x128x3_S32x256x128_2_2_1_1_0_0 3 rfl rfl).symm k) = ix3 b n k :=
    funext fun a => Fin.ext (by
      match a with
      | ⟨0, _⟩ => exact lhs_axis0 _ _
      | ⟨1, _⟩ => exact lhs_axis1 _ _
      | ⟨2, _⟩ => exact (lhs_axis2 _ _).trans hk)
  have er : dot_S32x256x3_S32x128x3_S32x256x128_2_2_1_1_0_0.rhsIdx (ix3 b n m) ((ValueIdx.contrEquiv1 dot_S32x256x3_S32x128x3_S32x256x128_2_2_1_1_0_0 3 rfl rfl).symm k) = ix3 b m k :=
    funext fun a => Fin.ext (by
      match a with
      | ⟨0, _⟩ => exact rhs_axis0 _ _
      | ⟨1, _⟩ => exact rhs_axis1 _ _
      | ⟨2, _⟩ => exact (rhs_axis2 _ _).trans hk)
  rw [el, er, pointsLast_apply, centresPerRow_apply]

/-! ## The block's entry -/

/-- The zero word a squared norm is started from is the extended real zero, so the bare sum of squares is the norm. -/
theorem sqNorm_eq (v : Fin 3 → EReal) : sqNorm v = ∑ d, v d * v d := by
  unfold sqNorm
  rw [Ideal.ofBits_zero_f32, zero_add]

/-- The expanded squared distance of point (b, n) and centre m. -/
theorem dists_apply (x : FVec Ideal S32x3x256 .f32) (s : FVec Ideal S3x128 .f32) (b : Fin 32) (n : Fin 256)
    (m : Fin 128) :
    dists x s (ix3 b n m) = dist2 (fun d => x (ix3 b d n)) (fun d => s (ix2 d m)) := by
  unfold dists dist2 dotProd
  rw [sqNorm_eq, sqNorm_eq, addf_apply, subf_apply, mulf_apply, spread_points, spread_centres, pointNorms_apply,
    centreNorms_apply, crossTerms_apply]
  rfl

/-- The clamped Gaussian term of point (b, n) and centre m. -/
theorem terms_apply (x : FVec Ideal S32x3x256 .f32) (s : FVec Ideal S3x128 .f32) (b : Fin 32) (n : Fin 256)
    (m : Fin 128) :
    terms x s (ix3 b n m) = gaussClamped (fun d => x (ix3 b d n)) (fun d => s (ix2 d m)) := by
  unfold gaussClamped
  rw [← dists_apply]
  rfl

/-- The sum over the slab's 256 points of the clamped Gaussian terms, at (row b, centre m). -/
theorem blockSums_apply (x : FVec Ideal S32x3x256 .f32) (s : FVec Ideal S3x128 .f32) (b : Fin 32) (m : Fin 128) :
    blockSums x s (ix2 b m) = ∑ n : Fin 256, gaussClamped (fun d => x (ix3 b d n)) (fun d => s (ix2 d m)) := by
  unfold blockSums
  refine (Ideal.multiReduction_add_single (terms x s) 0x00000000#32 reduces_S32x256x128_S32x128 (.inl rfl) rfl
    (ix2 b m)).trans ?_
  refine Finset.sum_congr rfl fun n _ => ?_
  have e : reduces_S32x256x128_S32x128.lift (ix2 b m) n = ix3 b n m :=
    funext fun a => Fin.ext (by match a with | ⟨0, _⟩ => rfl | ⟨1, _⟩ => rfl | ⟨2, _⟩ => rfl)
  rw [e]
  exact terms_apply x s b n m

/-- ONE POINT'S ARITHMETIC AT AN INDEX: the new accumulator at (row b, centre m) is the old one plus the sum over the
    slab's 256 points of the clamped Gaussian terms. -/
theorem pay2_apply (v6 : FVec Ideal S32x3x256 .f32) (v8 : FVec Ideal S3x128 .f32) (v33 : FVec Ideal S32x128 .f32)
    (b : Fin 32) (m : Fin 128) :
    k0_pay2 (F := Ideal) v6 v8 v33 (ix2 b m)
      = v33 (ix2 b m) + ∑ n : Fin 256, gaussClamped (fun d => v6 (ix3 b d n)) (fun d => v8 (ix2 d m)) := by
  rw [pay2_eq, shapeCast_self, shapeCast_self, shapeCast_self, addf_apply, blockSums_apply]

/-- The accumulator's reset value is the zero word everywhere. -/
theorem pay1_apply (j : S32x128.Idx) : k0_pay1 (F := Ideal) j = Ideal.ofBits .f32 0x00000000#32 := by
  unfold k0_pay1
  rw [shapeCast_self]
  rfl

end Cert.KernelIdeal.Payload

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.Blocks.lean ====
/-
  Sixteen blocks of 256 points make the sum over the 4096 points.

  The grid has 8 rows of 16 points; point t = 16·q + s works on the s-th slab of 256 points and on the q-th block of
  128 centres. What it adds to the accumulator at (batch row b, local centre m') is the sum over the slab's 256 points
  of the clamped Gaussian terms against centre 128·q + m'. A sum over 4096 indices is the sum over 16 consecutive
  blocks of 256 of the blocks' sums — addition of extended reals is commutative and associative, so this needs no
  finiteness — and for real entries the clamp changes no term. So the zero word plus the sixteen addends of a row of
  the grid is the result at (b, 128·q + m').
-/
import proofs.«160166_j36773509989121_2_alg».proof.Proof.Spec
import proofs.«160166_j36773509989121_2_alg».proof.Proof.LibIdxSums

open scoped BigOperators

noncomputable section

namespace Cert.Rbf

open Idealize.ShloMosaic Idealize.ShloMosaic.ValueIdx Cert.LibRealArith

/-- The global index of the n'-th point of the slab that grid point t works on. -/
def ptIdx (t : ℕ) (n' : Fin 256) : Fin 4096 := ⟨256 * (t % 16) + n'.val, by have := n'.isLt; omega⟩

/-- The global index of the m'-th centre of the block that grid point t works on. -/
def ctrIdx (t : ℕ) (m' : Fin 128) : Fin 1024 := ⟨128 * (t / 16 % 8) + m'.val, by have := m'.isLt; omega⟩

/-- What grid point t adds to the accumulator at (batch row b, local centre m'). -/
def addend (X : (⟨3, ![32, 4096, 3]⟩ : Shape).Idx → EReal) (S : (⟨2, ![1024, 3]⟩ : Shape).Idx → EReal) (t : ℕ)
    (b : Fin 32) (m' : Fin 128) : EReal :=
  ∑ n' : Fin 256, gaussClamped (fun d => X (ix3 b (ptIdx t n') d)) (fun d => S (ix2 (ctrIdx t m') d))

/-- A sum over the 4096 points, slab by slab. -/
theorem sum_points_by_slab (h : Fin 4096 → EReal) :
    ∑ n : Fin 4096, h n = ∑ s ∈ Finset.range 16, ∑ n' : Fin 256, h (ptIdx s n') := by
  rw [Cert.LibIdxSums.sum_range_eq_sum_fin 16 fun s => ∑ n' : Fin 256, h (ptIdx s n')]
  refine (Cert.LibIdxSums.sum_fin_blocks 16 256 h).trans ?_
  refine Finset.sum_congr rfl fun s _ => Finset.sum_congr rfl fun n' _ => ?_
  refine congrArg h (Fin.ext ?_)
  show s.val * 256 + n'.val = 256 * (s.val % 16) + n'.val
  have := s.isLt
  omega

/-- For real entries, the zero word plus the sixteen addends of row q of the grid is the result at
    (b, 128·q + m'). -/
theorem row_total (X : (⟨3, ![32, 4096, 3]⟩ : Shape).Idx → EReal) (S : (⟨2, ![1024, 3]⟩ : Shape).Idx → EReal)
    (hX : AllReal X) (hS : AllReal S) (q : ℕ) (hq : q < 8) (b : Fin 32) (m' : Fin 128) (mm : Fin 1024)
    (hmm : mm.val = 128 * q + m'.val) :
    Ideal.ofBits .f32 0x00000000#32 + ∑ s ∈ Finset.range 16, addend X S (16 * q + s) b m' = Gat X S b mm := by
  unfold Gat addend
  refine congrArg (Ideal.ofBits .f32 0x00000000#32 + ·) ?_
  rw [sum_points_by_slab]
  refine Finset.sum_congr rfl fun s hs => Finset.sum_congr rfl fun n' _ => ?_
  have hs' : s < 16 := Finset.mem_range.mp hs
  have e1 : ptIdx (16 * q + s) n' = ptIdx s n' := Fin.ext (by
    show 256 * ((16 * q + s) % 16) + n'.val = 256 * (s % 16) + n'.val
    omega)
  have e2 : ctrIdx (16 * q + s) m' = mm := Fin.ext (by
    show 128 * ((16 * q + s) / 16 % 8) + m'.val = mm.val
    omega)
  rw [e1, e2]
  exact gaussClamped_eq (fun d => hX _) (fun d => hS _)

end Cert.Rbf

end
-- ==== Proof.LibReadAt.lean ====
/-
  Two readings that recur whenever a kernel's stores and loads are opened at an index, for any shapes.

  A load of a buffer through a unit-stride rectangle, read at a position, is the buffer at the rectangle's offsets plus
  the position, coordinate by coordinate (`ld_unit_apply`; `readAt_unread` puts a load of a whole memref held at
  named contents in that form). A reshape that splits the last axis of a matrix in two, or adds a leading unit axis,
  keeps row-major order: entry `(a, b, c)` of the split is entry `(a, b·C + c)` of the matrix, and entry
  `(0, a, b, c)` of the unit-axis form is entry `(a, b, c)` (`split_last_apply`, `lead_unit4_apply`); the chunk of a
  [1, A, N] vector seen as [A, N] likewise (`drop_unit3_apply`).
-/
import Idealize.ShloMosaic.Lib.Pipeline.FrameBody
import Idealize.ShloMosaic.Lib.Pipeline.Frame
import Idealize.ShloMosaic.Lib.Pipeline.Value
import Idealize.ShloMosaic.Lib.ValueIdx

noncomputable section

namespace Cert.LibReadAt

open Idealize.ShloMosaic

variable {α : Type}

/-- A load through a unit-stride rectangle, at a position: the contents at offset plus position. -/
theorem ld_unit_apply {s : Shape} {Val : EltTy → Type} {e : EltTy} (X : s.Idx → Val e) (off : Fin s.rank → ℕ)
    (size : Fin s.rank → ℕ) (inb : ∀ a, off a + size a ≤ s.size a)
    (k : (Rect.unit (s := s) off size inb).shape.Idx) (j : s.Idx) (hj : ∀ a, (j a).val = off a + (k a).val) :
    View.ld X (Rect.unit (s := s) off size inb) k = X j := by
  show X ((Rect.unit (s := s) off size inb).emb k) = X j
  refine congrArg X (funext fun a => Fin.ext ?_)
  rw [Rect.emb_apply, hj a]
  simp only [Rect.off_unit, Rect.stride_unit, Nat.one_mul]

/-- A [A, B·C] matrix reshaped to [A, B, C], read at `(a, b, c)`. -/
theorem split_last_apply {A B C N : ℕ} (x : (⟨2, ![A, N]⟩ : Shape).Idx → α)
    (h : (⟨2, ![A, N]⟩ : Shape).ShapeCasts ⟨3, ![A, B, C]⟩) (a : Fin A) (b : Fin B) (c : Fin C) (n : Fin N)
    (hN : N = B * C) (hn : n.val = b.val * C + c.val) :
    shapeCast ⟨3, ![A, B, C]⟩ x h (ValueIdx.ix3 a b c) = x (ValueIdx.ix2 a n) := by
  refine shapeCast_apply x h _ _ ?_
  rw [Shape.rowMajor_val_two, Shape.rowMajor_val_three]
  show a.val * N + n.val = (a.val * B + b.val) * C + c.val
  rw [hn, hN]
  ring

/-- A [A, B, C] array given a leading unit axis, read at `(0, a, b, c)`. -/
theorem lead_unit4_apply {A B C : ℕ} (x : (⟨3, ![A, B, C]⟩ : Shape).Idx → α)
    (h : (⟨3, ![A, B, C]⟩ : Shape).ShapeCasts ⟨4, ![1, A, B, C]⟩) (a : Fin A) (b : Fin B) (c : Fin C) :
    shapeCast ⟨4, ![1, A, B, C]⟩ x h (ValueIdx.ix4 (0 : Fin 1) a b c) = x (ValueIdx.ix3 a b c) := by
  refine shapeCast_apply x h _ _ ?_
  rw [Shape.rowMajor_val_three, Shape.rowMajor_val_four]
  show (a.val * B + b.val) * C + c.val = (((0 : ℕ) * A + a.val) * B + b.val) * C + c.val
  rw [Nat.zero_mul, Nat.zero_add]

/-- A [1, A, N] array with its leading unit axis dropped, read at `(a, n)`. -/
theorem drop_unit3_apply {A N : ℕ} (x : (⟨3, ![1, A, N]⟩ : Shape).Idx → α)
    (h : (⟨3, ![1, A, N]⟩ : Shape).ShapeCasts ⟨2, ![A, N]⟩) (a : Fin A) (n : Fin N) :
    shapeCast ⟨2, ![A, N]⟩ x h (ValueIdx.ix2 a n) = x (ValueIdx.ix3 (0 : Fin 1) a n) := by
  refine shapeCast_apply x h _ _ ?_
  rw [Shape.rowMajor_val_three, Shape.rowMajor_val_two]
  show ((0 : ℕ) * A + a.val) * N + n.val = a.val * N + n.val
  rw [Nat.zero_mul, Nat.zero_add]

end Cert.LibReadAt

end
-- ==== Proof.Acc.lean ====
/-
  The kernel's result array is the Gaussian kernel sum.

  The resident point array is the launched points with the coordinate axis moved to the middle, and the centre array
  the launched centres with the two axes swapped; a window's block at grid point t = 16·q + s is, on each axis, the
  array at block index × block size + position, so the slab the body cuts for point t holds the points
  256·s … 256·s + 255 of every batch row and the centre block the centres 128·q … 128·q + 127. One point therefore adds
  to the accumulator, at (b, m'), the 256 clamped Gaussian terms of those points against centre 128·q + m'; the first
  point of a row of the grid starts from the zero word. By induction along the row the accumulator after point
  16·q + s is the zero word plus the addends of points 16·q … 16·q + s. The last point of the row copies the
  accumulator to the output block, which is written back to columns 128·q … 128·q + 127 of the result; these eight
  column blocks cover the result array. For real entries the sixteen addends of a row add up to the result's entry.
-/
import proofs.«160166_j36773509989121_2_alg».proof.Proof.Gen.KernelIdeal.Value
import Idealize.ShloMosaic.Lib.StableHlo.Run
import proofs.«160166_j36773509989121_2_alg».proof.Proof.Pieces
import proofs.«160166_j36773509989121_2_alg».proof.Proof.Payload
import proofs.«160166_j36773509989121_2_alg».proof.Proof.Blocks
import proofs.«160166_j36773509989121_2_alg».proof.Proof.LibReadAt

set_option maxRecDepth 16384

open scoped BigOperators

noncomputable section

namespace Cert.KernelIdeal.Acc

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.Rbf Cert.LibRealArith

variable (m : (ℓ : Loc nD τ sig) → Buf (Elt Ideal) ℓ)

/-- The points as launched on core c. -/
abbrev pts (c : Dev nD) : S32x4096x3.Idx → EReal := m ((c : Thread nD τ).loc main_arg0)
/-- The centres as launched on core c. -/
abbrev ctrs (c : Dev nD) : S1024x3.Idx → EReal := m ((c : Thread nD τ).loc main_arg1)

/-! ## The grid -/

/-- The printed index maps and the second grid coordinate, decided once over the 128 points: point t is in row t / 16
    of the grid at position t mod 16; the point window's block index is zero, the centre and result windows' is
    (0, t / 16). -/
theorem grid_facts : ∀ t : Fin cfg0.N,
    (grid0.coords t (1 : Fin 2)).val = t.val % 16
    ∧ win0_0.index t (0 : Fin 3) = 0 ∧ win0_0.index t (1 : Fin 3) = 0 ∧ win0_0.index t (2 : Fin 3) = 0
    ∧ win0_1.index t (0 : Fin 2) = 0 ∧ win0_1.index t (1 : Fin 2) = t.val / 16
    ∧ win0_2.index t (0 : Fin 2) = 0 ∧ win0_2.index t (1 : Fin 2) = t.val / 16 :=
  (by decide +kernel : ∀ t : Fin grid0.N, _)

/-! ## The arrays the region finds -/

theorem V_points (c : Dev nD) :
    (V m c main_v0 : S32x3x4096.Idx → EReal)
      = transpose S32x3x4096 [0, 2, 1] (pts m c) transposes_S32x4096x3_S32x3x4096_0_2_1 := by
  dsimp only [V, hostOps0]; after_results

theorem V_centres (c : Dev nD) :
    (V m c main_v1 : S3x1024.Idx → EReal) = transpose S3x1024 [1, 0] (ctrs m c) transposes_S1024x3_S3x1024_1_0 := by
  dsimp only [V, hostOps0]; after_results

/-- The resident point array at (b, d, n) is coordinate d of launched point (b, n). -/
theorem V_points_apply (c : Dev nD) (b : Fin 32) (d : Fin 3) (n : Fin 4096) :
    (V m c main_v0 : S32x3x4096.Idx → EReal) (ix3 b d n) = pts m c (ix3 b n d) :=
  (congrFun (V_points m c) (ix3 b d n)).trans
    (transpose_apply [0, 2, 1] (pts m c) transposes_S32x4096x3_S32x3x4096_0_2_1 (ix3 b d n) (ix3 b n d) (fun a => by
      match a with
      | ⟨0, _⟩ => rfl
      | ⟨1, _⟩ => rfl
      | ⟨2, _⟩ => rfl))

/-- The centre array at (d, k) is coordinate d of launched centre k. -/
theorem V_centres_apply (c : Dev nD) (d : Fin 3) (k : Fin 1024) :
    (V m c main_v1 : S3x1024.Idx → EReal) (ix2 d k) = ctrs m c (ix2 k d) :=
  (congrFun (V_centres m c) (ix2 d k)).trans
    (transpose_apply [1, 0] (ctrs m c) transposes_S1024x3_S3x1024_1_0 (ix2 d k) (ix2 k d) (fun a => by
      match a with
      | ⟨0, _⟩ => rfl
      | ⟨1, _⟩ => rfl))

/-! ## The blocks a point loads -/

/-- The point window's block is the whole resident array. -/
theorem blk0_read (c : Dev nD) (t : Fin cfg0.N) (b : Fin 32) (d : Fin 3) (n : Fin 4096) :
    (iblk m c 0 t : Vec Ideal S32x3x4096 .f32) (ix3 b d n) = pts m c (ix3 b n d) := by
  obtain ⟨-, h0, h1, h2, -⟩ := grid_facts t
  have hemb : ((cfg0.win 0).blk t).view.emb (ix3 b d n) = ix3 b d n := by
    funext a; apply Fin.ext
    match a with
    | ⟨0, _⟩ => show win0_0.index t (0 : Fin 3) * 32 + 1 * b.val = b.val; omega
    | ⟨1, _⟩ => show win0_0.index t (1 : Fin 3) * 3 + 1 * d.val = d.val; omega
    | ⟨2, _⟩ => show win0_0.index t (2 : Fin 3) * 4096 + 1 * n.val = n.val; omega
  show (V m c main_v0 : S32x3x4096.Idx → EReal) (((cfg0.win 0).blk t).view.emb (ix3 b d n)) = _
  rw [hemb]
  exact V_points_apply m c b d n

/-- The centre window's block at point t holds the centres of the point's block. -/
theorem blk1_read (c : Dev nD) (t : Fin cfg0.N) (d : Fin 3) (m' : Fin 128) :
    (iblk m c 1 t : Vec Ideal S3x128 .f32) (ix2 d m') = ctrs m c (ix2 (ctrIdx t.val m') d) := by
  obtain ⟨-, -, -, -, h0, h1, -⟩ := grid_facts t
  have hN : t.val < 128 := lt_of_lt_of_eq t.isLt (show cfg0.N = 128 from N_0)
  have hemb : ((cfg0.win 1).blk t).view.emb (ix2 d m')
      = ix2 d (⟨128 * (t.val / 16) + m'.val, by have := m'.isLt; omega⟩ : Fin 1024) := by
    funext a; apply Fin.ext
    match a with
    | ⟨0, _⟩ => show win0_1.index t (0 : Fin 2) * 3 + 1 * d.val = d.val; omega
    | ⟨1, _⟩ => show win0_1.index t (1 : Fin 2) * 128 + 1 * m'.val = 128 * (t.val / 16) + m'.val; omega
  show (V m c main_v1 : S3x1024.Idx → EReal) (((cfg0.win 1).blk t).view.emb (ix2 d m')) = _
  rw [hemb]
  refine (V_centres_apply m c d _).trans ?_
  refine congrArg (fun k => ctrs m c (ix2 k d)) (Fin.ext ?_)
  show 128 * (t.val / 16) + m'.val = 128 * (t.val / 16 % 8) + m'.val
  omega

/-- The slab cut for point t: position n' of the slab is point 256·(t mod 16) + n' of the resident array. -/
theorem slab_read (t : Fin cfg0.N) (x0 : Vec Ideal S32x3x4096 .f32) (b : Fin 32) (d : Fin 3) (n' : Fin 256) :
    Pieces.slab (grid0.coords t) x0 (ix3 b d n') = x0 (ix3 b d (ptIdx t.val n')) := by
  unfold Pieces.slab
  have ho := k0_off1_eq (grid0.coords t)
  have hc := (grid_facts t).1
  refine Cert.LibReadAt.ld_unit_apply x0 (k0_off1 (grid0.coords t)) S32x3x256.size (k0_off1_inb (grid0.coords t))
    (ix3 b d n') (ix3 b d (ptIdx t.val n')) (fun a => ?_)
  match a with
  | ⟨0, _⟩ =>
    have h : k0_off1 (grid0.coords t) (0 : Fin 3) = 0 := congrFun ho 0
    show b.val = k0_off1 (grid0.coords t) (0 : Fin 3) + b.val
    omega
  | ⟨1, _⟩ =>
    have h : k0_off1 (grid0.coords t) (1 : Fin 3) = 0 := congrFun ho 1
    show d.val = k0_off1 (grid0.coords t) (1 : Fin 3) + d.val
    omega
  | ⟨2, _⟩ =>
    have h : k0_off1 (grid0.coords t) (2 : Fin 3) = 256 * (grid0.coords t (1 : Fin 2)).val := congrFun ho 2
    show 256 * (t.val % 16) + n'.val = k0_off1 (grid0.coords t) (2 : Fin 3) + n'.val
    omega

/-! ## One point's step -/

/-- One point's arithmetic on blocks that hold the point's points and centres: the accumulator plus the point's addend. -/
theorem point_apply (t : Fin cfg0.N) (x0 : Vec Ideal S32x3x4096 .f32) (x1 : Vec Ideal S3x128 .f32)
    (acc : Vec Ideal S32x128 .f32) (X : S32x4096x3.Idx → EReal) (S : S1024x3.Idx → EReal)
    (hx0 : ∀ (b : Fin 32) (d : Fin 3) (n : Fin 4096), x0 (ix3 b d n) = X (ix3 b n d))
    (hx1 : ∀ (d : Fin 3) (m' : Fin 128), x1 (ix2 d m') = S (ix2 (ctrIdx t.val m') d))
    (b : Fin 32) (m' : Fin 128) :
    k0_pay2 (F := Ideal) (Pieces.slab (grid0.coords t) x0) x1 acc (ix2 b m')
      = acc (ix2 b m') + addend X S t.val b m' := by
  rw [Payload.pay2_apply]
  unfold addend
  refine congrArg (acc (ix2 b m') + ·) (Finset.sum_congr rfl fun n' _ => ?_)
  refine congrArg₂ gaussClamped (funext fun d => ?_) (funext fun d => hx1 d m')
  rw [slab_read, hx0]

/-- What point n leaves in the accumulator over what the point before left: the first point of a row starts from the
    zero word, every other point from its predecessor's contents. -/
theorem scAt_apply (c : Dev nD) (n : ℕ) (hb : n < cfg0.N) (acc : Vec Ideal S32x128 .f32) (b : Fin 32) (m' : Fin 128) :
    Value.scAt0_0 m c n hb acc (ix2 b m')
      = (if n % 16 = 0 then Ideal.ofBits .f32 0x00000000#32 else acc (ix2 b m'))
        + addend (pts m c) (ctrs m c) n b m' := by
  have hN : n < 128 := lt_of_lt_of_eq hb (show cfg0.N = 128 from N_0)
  unfold Value.scAt0_0
  by_cases h0 : n % 16 = 0
  · have h1 : ¬n % 16 = 15 := by omega
    rw [dif_pos h0, dif_neg h1, if_pos h0]
    refine (congrFun (Pieces.sout_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))) (ix2 b m')).trans ?_
    refine (point_apply (⟨n, hb⟩ : Fin cfg0.N) (iblk m c 0 (⟨n, hb⟩ : Fin cfg0.N)) (iblk m c 1 (⟨n, hb⟩ : Fin cfg0.N)) (k0_pay1 (F := Ideal)) (pts m c) (ctrs m c)
      (blk0_read m c (⟨n, hb⟩ : Fin cfg0.N)) (blk1_read m c (⟨n, hb⟩ : Fin cfg0.N)) b m').trans ?_
    rw [Payload.pay1_apply]
  · rw [dif_neg h0, if_neg h0]
    by_cases h1 : n % 16 = 15
    · rw [dif_pos h1]
      refine (congrFun (Pieces.sout_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc) (ix2 b m')).trans ?_
      exact point_apply (⟨n, hb⟩ : Fin cfg0.N) (iblk m c 0 (⟨n, hb⟩ : Fin cfg0.N)) (iblk m c 1 (⟨n, hb⟩ : Fin cfg0.N)) acc (pts m c) (ctrs m c)
        (blk0_read m c (⟨n, hb⟩ : Fin cfg0.N)) (blk1_read m c (⟨n, hb⟩ : Fin cfg0.N)) b m'
    · rw [dif_neg h1]
      refine (congrFun (Pieces.sout_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc) (ix2 b m')).trans ?_
      exact point_apply (⟨n, hb⟩ : Fin cfg0.N) (iblk m c 0 (⟨n, hb⟩ : Fin cfg0.N)) (iblk m c 1 (⟨n, hb⟩ : Fin cfg0.N)) acc (pts m c) (ctrs m c)
        (blk0_read m c (⟨n, hb⟩ : Fin cfg0.N)) (blk1_read m c (⟨n, hb⟩ : Fin cfg0.N)) b m'

/-! ## Along a row of the grid -/

/-- The accumulator after point t: the zero word plus the addends of the row's points up to t. -/
theorem scratch_apply (c : Dev nD) (t : Fin cfg0.N) (b : Fin 32) (m' : Fin 128) :
    (outsAt0 m c t.val t.isLt).2 (ix2 b m')
      = Ideal.ofBits .f32 0x00000000#32
        + ∑ s ∈ Finset.range (t.val % 16 + 1), addend (pts m c) (ctrs m c) (16 * (t.val / 16) + s) b m' := by
  rw [Value.soutsAt0_0_eq m c t]
  exact Pipeline.accAt_add_apply (β := EReal)
    (fun n h => Value.scAt0_0 m c n h (VS0_0.read (Elt Ideal) VS0_0.junk)) (Value.scAt0_0 m c)
    (fun _ => Ideal.ofBits .f32 0x00000000#32) (fun n i => addend (pts m c) (ctrs m c) n (i 0) (i 1))
    (16 * (t.val / 16)) 15
    (fun h i => by
      obtain ⟨b, m', rfl⟩ : ∃ (b : Fin 32) (m' : Fin 128), i = ix2 b m' := ⟨i 0, i 1, eq_ix2 i⟩
      rw [scAt_apply, if_pos (by omega)])
    (fun n h acc i hlo hhi => by
      obtain ⟨b, m', rfl⟩ : ∃ (b : Fin 32) (m' : Fin 128), i = ix2 b m' := ⟨i 0, i 1, eq_ix2 i⟩
      rw [scAt_apply, if_neg (by omega)])
    (t.val % 16) (by omega) _ (ix2 b m')

/-- At the last point of a row the output block is the accumulator. -/
theorem out_eq_scratch (c : Dev nD) (t : Fin cfg0.N) (h0 : ¬t.val % 16 = 0) (h1 : t.val % 16 = 15) :
    (outsAt0 m c t.val t.isLt).1 = (outsAt0 m c t.val t.isLt).2 := by
  rw [outsAt0_C m c t h0 h1]
  dsimp only
  exact (Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (Pieces.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm

/-! ## From the blocks to the array -/

/-- What a flushing point writes back is its block of the Gaussian kernel sum, when the launched entries are real. -/
theorem flushed_eq (c : Dev nD) (hX : AllReal (pts m c)) (hS : AllReal (ctrs m c)) (t : Fin cfg0.N)
    (hf : (cfg0.win 2).flush t = true) :
    (dats m 0 c).flushed 2 t = ((cfg0.win 2).blk t).view.read (Elt Ideal) (G (pts m c) (ctrs m c)) := by
  have h1 : t.val % 16 = 15 := (flush0_2 t).mp hf
  have h0 : ¬t.val % 16 = 0 := by omega
  have hN : t.val < 128 := lt_of_lt_of_eq t.isLt (show cfg0.N = 128 from N_0)
  obtain ⟨-, -, -, -, -, -, g0, g1⟩ := grid_facts t
  rw [Value.flushed2 m c t, out_eq_scratch m c t h0 h1]
  funext y
  obtain ⟨b, m', rfl⟩ : ∃ (b : Fin 32) (m' : Fin 128), y = ix2 b m' := ⟨y 0, y 1, eq_ix2 y⟩
  have hemb : ((cfg0.win 2).blk t).view.emb (ix2 b m')
      = ix2 b (⟨128 * (t.val / 16) + m'.val, by have := m'.isLt; omega⟩ : Fin 1024) := by
    funext a; apply Fin.ext
    match a with
    | ⟨0, _⟩ => show win0_2.index t (0 : Fin 2) * 32 + 1 * b.val = b.val; omega
    | ⟨1, _⟩ => show win0_2.index t (1 : Fin 2) * 128 + 1 * m'.val = 128 * (t.val / 16) + m'.val; omega
  show (outsAt0 m c t.val t.isLt).2 (ix2 b m') = G (pts m c) (ctrs m c) (((cfg0.win 2).blk t).view.emb (ix2 b m'))
  rw [hemb, G_apply, scratch_apply, h1]
  exact row_total (pts m c) (ctrs m c) hX hS (t.val / 16) (by omega) b m' _ rfl

/-- An index of the result is in point t's block iff each coordinate is in the block's range on its axis. -/
theorem mem_blk2 (t : Fin cfg0.N) (i : S32x1024.Idx) :
    i ∈ ((cfg0.win 2).blk t).view.set ↔ ∀ a : Fin 2, win0_2.index t a * S32x128.size a ≤ (i a).val
      ∧ (i a).val < win0_2.index t a * S32x128.size a + S32x128.size a := by
  show i ∈ ((View.whole main_v2).slice (win0_2.rect t)).set ↔ _
  rw [View.set_slice_whole, Rect.mem_set_unit]
  exact Iff.rfl

/-- Every index of the result is in the block of the last point of some row of the grid. -/
theorem cover (i : S32x1024.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hlt : 16 * ((i 1).val / 128) + 15 < cfg0.N := by rw [show cfg0.N = 128 from N_0]; omega
  obtain ⟨t, ht⟩ : ∃ t : Fin cfg0.N, t.val = 16 * ((i 1).val / 128) + 15 := ⟨⟨_, hlt⟩, rfl⟩
  obtain ⟨-, -, -, -, -, -, g0, g1⟩ := grid_facts t
  refine ⟨t, (flush0_2 t).mpr (by omega), ?_⟩
  rw [mem_blk2]
  intro a
  match a with
  | ⟨0, _⟩ =>
    show win0_2.index t (0 : Fin 2) * 32 ≤ (i 0).val ∧ (i 0).val < win0_2.index t (0 : Fin 2) * 32 + 32
    omega
  | ⟨1, _⟩ =>
    show win0_2.index t (1 : Fin 2) * 128 ≤ (i 1).val ∧ (i 1).val < win0_2.index t (1 : Fin 2) * 128 + 128
    omega

/-- The result array after the run, when the launched entries are real. -/
theorem final (c : Dev nD) (hX : AllReal (pts m c)) (hS : AllReal (ctrs m c)) :
    (dats m 0 c).arrAt 2 cfg0.N = G (pts m c) (ctrs m c) :=
  (dats m 0 c).arrAt_eq_of_cover 2 (G (pts m c) (ctrs m c)) (fun t hf => flushed_eq m c hX hS t hf) cover

/-- The kernel's run: every weakly fair execution terminates with the result array at the Gaussian kernel sum of the
    launched arrays and the arguments unchanged, when the launched entries are real. -/
theorem run (ρ : Dev nD → PrngReg) (hreal : ∀ c : Dev nD, AllReal (pts m c) ∧ AllReal (ctrs m c)) :
    θ_run defs (onTc (τ := τ) (main (F := Ideal))) ⟨m, fun _ => 0, ρ⟩ fun r => ∀ c : Dev nD,
      r.2.mem ((c : Thread nD τ).loc main_v2) = G (pts m c) (ctrs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hreal c).1 (hreal c).2), (h c).2⟩)
    (Value.run_blocks m ρ)

end Cert.KernelIdeal.Acc

end
-- ==== Proof.RefIsG.lean ====
/-
  The reference's result is the Gaussian kernel sum.

  Read one operation at a time, entry (b, m) of the reference's result is the zero word plus the sum over the points
  n of exp(−½·((|x|² − 2·(s·x)) + |s|²)), with x the point (b, n) and s the centre m: the squared norms are the host's
  sums over the last axis, the dot products come from one contraction of the centres with the points followed by a
  swap of the first two axes, and the broadcasts only re-read entries. The contraction multiplies centre by point
  where the specification multiplies point by centre; a product of extended reals commutes.
-/
import proofs.«160166_j36773509989121_2_alg».proof.Proof.Gen.ReferenceIdeal.Read
import proofs.«160166_j36773509989121_2_alg».proof.Proof.Spec

open scoped BigOperators

noncomputable section

namespace Cert.ReferenceIdeal.RefValue

open Cert.ReferenceIdeal Cert.ReferenceIdeal.Gen Cert.ReferenceIdeal.Read Idealize.ShloMosaic
open Idealize.ShloMosaic.ValueIdx Cert.Rbf

/-- The point (b, n) read through the chain of broadcasts and the sum over the last axis. -/
theorem idx_point (b : Fin 32) (m : Fin 1024) (n : Fin 4096) (k : Fin 3) :
    idx_main_v1 (idx_main_v6 (idx_main_v9 (idx_main_v17 (ix2 b m) n))) k = ix3 b n k :=
  funext fun a => Fin.ext (by match a with | ⟨0, _⟩ => rfl | ⟨1, _⟩ => rfl | ⟨2, _⟩ => rfl)

/-- The centre m read through its two broadcasts and the sum over the last axis. -/
theorem idx_centre (b : Fin 32) (m : Fin 1024) (n : Fin 4096) (k : Fin 3) :
    idx_main_v3 (idx_main_v11 (idx_main_v12 (idx_main_v17 (ix2 b m) n))) k = ix2 m k :=
  funext fun a => Fin.ext (by match a with | ⟨0, _⟩ => rfl | ⟨1, _⟩ => rfl)

/-- The contraction's left operand (the centres) at (m, k), through the swap of the first two axes. -/
theorem idx_dot_left (b : Fin 32) (m : Fin 1024) (n : Fin 4096) (k : Fin 3) :
    lidx_main_v4 (idx_main_v5 (idx_main_v17 (ix2 b m) n)) k = ix2 m k :=
  funext fun a => Fin.ext (by match a with | ⟨0, _⟩ => rfl | ⟨1, _⟩ => rfl)

/-- The contraction's right operand (the points) at (b, n, k), through the swap of the first two axes. -/
theorem idx_dot_right (b : Fin 32) (m : Fin 1024) (n : Fin 4096) (k : Fin 3) :
    ridx_main_v4 (idx_main_v5 (idx_main_v17 (ix2 b m) n)) k = ix3 b n k :=
  funext fun a => Fin.ext (by match a with | ⟨0, _⟩ => rfl | ⟨1, _⟩ => rfl | ⟨2, _⟩ => rfl)

/-- The reference's last stage, as a function of the two argument arrays, is the Gaussian kernel sum. -/
theorem ref_eq_G (x0 : (⟨S32x4096x3, .f32⟩ : BufTy).Contents (Elt Ideal))
    (x1 : (⟨S1024x3, .f32⟩ : BufTy).Contents (Elt Ideal)) :
    val_main_v17 (F := Ideal) x0 x1 = G x0 x1 := by
  funext i
  obtain ⟨b, m, rfl⟩ : ∃ (b : Fin 32) (m : Fin 1024), i = ix2 b m := ⟨i 0, i 1, eq_ix2 i⟩
  rw [val_main_v17_apply, G_apply]
  unfold Gat
  refine congrArg₂ (· + ·) rfl (Finset.sum_congr rfl fun n _ => ?_)
  rw [val_main_v16_apply, val_main_v15_apply, val_main_v14_apply, val_main_cst_2_apply, val_main_v13_apply,
    val_main_v10_apply, val_main_v9_apply, val_main_v6_apply, val_main_v1_apply, val_main_v8_apply,
    val_main_v7_apply, val_main_cst_1_apply, val_main_v5_apply, val_main_v4_apply, val_main_v12_apply,
    val_main_v11_apply, val_main_v3_apply]
  simp only [val_main_v0_apply, val_main_v2_apply, val_main_cst_apply, val_main_cst_0_apply,
    Ideal.hostUnary_exp_def, Ideal.mulf_def, Ideal.addf_def, Ideal.subf_def, Ideal.ofBits_def,
    idx_point, idx_centre, idx_dot_left, idx_dot_right]
  unfold gauss dist2 sqNorm dotProd
  have e : ∑ d : Fin 3, x1 (ix2 m d) * x0 (ix3 b n d) = ∑ d : Fin 3, x0 (ix3 b n d) * x1 (ix2 m d) :=
    Finset.sum_congr rfl fun d _ => mul_comm _ _
  rw [e]

end Cert.ReferenceIdeal.RefValue

end
-- ==== Proof.LibFiniteEntry.lean ====
/-
  An entry that passes the finiteness test is a real number.

  An extended real is a real number, +∞ or −∞; its absolute value is the larger of it and its negative, which for +∞
  and for −∞ is +∞. So an extended real whose absolute value is strictly below +∞ is a real number
  (`isReal_of_abs_lt_top`), and so is one for which the comparison "absolute value < the binary32 pattern of +∞"
  answers the bit 1 (`isReal_of_cmp`): the form in which a "every input is finite" precondition tests each entry.
-/
import Mathlib
import Idealize.ShloMosaic.PureOps.Ideal
import proofs.«160166_j36773509989121_2_alg».proof.Proof.LibRealArith

noncomputable section

namespace Cert.LibFiniteEntry

open Idealize.ShloMosaic Cert.LibRealArith

/-- The binary32 pattern of +∞. -/
theorem ofBits_inf : Ideal.ofBits .f32 0x7F800000#32 = ⊤ := by
  simp [Ideal.ofBits, Ideal.ieee]

/-- An extended real whose absolute value is below +∞ is a real number. -/
theorem isReal_of_abs_lt_top (x : EReal) (h : max x (-x) < ⊤) : IsReal x := by
  induction x using EReal.rec with
  | bot => exact absurd h (by simp)
  | top => exact absurd h (by simp)
  | coe r => exact ⟨r, rfl⟩

/-- The same, from the comparison's one-bit answer against the pattern of +∞. -/
theorem isReal_of_cmp (x : EReal)
    (h : Ideal.cmp .olt (max x (-x)) (Ideal.ofBits .f32 0x7F800000#32) = 1#1) : IsReal x := by
  rw [ofBits_inf] at h
  refine isReal_of_abs_lt_top x ?_
  by_contra hn
  unfold Ideal.cmp at h
  simp [hn] at h

end Cert.LibFiniteEntry

end
-- ==== Proof.Finite.lean ====
/-
  Finite inputs are arrays of real numbers.

  The precondition asks, of each argument array, that every entry's absolute value be below +∞, and joins the two
  answers by "and". An extended real is a real number, +∞ or −∞, and its absolute value is the larger of it and its
  negative: for +∞ and for −∞ that is +∞, which is not below +∞. So an entry that passes the test is a real number,
  and when the precondition's one answer is 1, every entry of both arrays passed.
-/
import Mathlib
import Idealize.ShloMosaic.Lib.ReduceAll
import Idealize.ShloMosaic.Lib.ValueIdx
import Idealize.ShloMosaic.PureOps.Ideal.Laws
import proofs.«160166_j36773509989121_2_alg».proof.Pre_finite_inputs
import proofs.«160166_j36773509989121_2_alg».proof.Proof.LibRealArith
import proofs.«160166_j36773509989121_2_alg».proof.Proof.LibFiniteEntry

noncomputable section

namespace Cert.Finite

open Idealize.ShloMosaic Cert.LibRealArith Cert.LibFiniteEntry

instance : Subsingleton Cert.Pre_finite_inputs.S_.Idx := ⟨fun _ _ => funext fun d => d.elim0⟩

/-- When the precondition's answer is 1, both argument arrays hold real numbers only. -/
theorem real_of_finite [Cert.Pre_finite_inputs.Facts]
    (a0 : FVec Ideal Cert.Pre_finite_inputs.S32x4096x3 .f32) (a1 : FVec Ideal Cert.Pre_finite_inputs.S1024x3 .f32)
    (h : Cert.Pre_finite_inputs.fn (F := Ideal) a0 a1 = fun _ => 1#1) : AllReal a0 ∧ AllReal a1 := by
  have h0 := congrFun h ValueIdx.ix0
  dsimp only [Cert.Pre_finite_inputs.fn] at h0
  have h1 : IntOp.andi _ _ = 1#1 := h0
  obtain ⟨ha, hb⟩ := IntOp.andi_eq_one.1 h1
  refine ⟨fun i => isReal_of_cmp _ ?_, fun i => isReal_of_cmp _ ?_⟩
  · exact Host.reduce_andi_all _ _ _ _ _ ha i
  · exact Host.reduce_andi_all _ _ _ _ _ hb i

end Cert.Finite

end
-- ==== Proof.lean ====
/-
  A Gaussian kernel sum computed block by block against the same sum computed at once.

  For 32 batch rows of 4096 points and 1024 centres in three coordinates, both programs produce, at (row b, centre m),
  the sum over the row's points x of exp(−½·d²(x, s_m)), with the squared distance expanded as
  |x|² − 2·(x·s) + |s|². The reference forms all 32 × 1024 × 4096 terms and sums over the points. The kernel walks a grid
  of 8 blocks of 128 centres by 16 slabs of 256 points, keeps a [32, 128] accumulator that it zeroes at the first slab,
  adds each slab's 256 terms to, and writes to the result after the last slab; before exponentiating it replaces the
  expanded distance by its maximum with zero.

  At the exact reading the two agree for finite inputs. The expanded distance of real coordinates is the sum of the
  squared coordinate differences, so it is not negative and the maximum with zero returns it unchanged; at an infinite
  coordinate the expansion meets ∞ − ∞, which is why the precondition is used. Sixteen sums of 256 terms, started from
  zero, are the sum of the 4096 terms, because addition of extended reals is commutative and associative. The kernel's
  contraction multiplies point by centre and the reference's centre by point; products commute.

  The three frames: the kernel's two are the generated ones, and the reference's is its generated run with the result
  dropped. The idealization rewrote nothing, so there is nothing to preserve.
-/
import proofs.«160166_j36773509989121_2_alg».proof.Defs
import proofs.«160166_j36773509989121_2_alg».proof.Proof.Gen.Kernel
import proofs.«160166_j36773509989121_2_alg».proof.Proof.Gen.Kernel.Skeleton
import proofs.«160166_j36773509989121_2_alg».proof.Proof.Gen.Kernel.Launch
import proofs.«160166_j36773509989121_2_alg».proof.Proof.Gen.Kernel.Points
import proofs.«160166_j36773509989121_2_alg».proof.Proof.Gen.Kernel.Frame
import proofs.«160166_j36773509989121_2_alg».proof.Proof.Gen.KernelIdeal
import proofs.«160166_j36773509989121_2_alg».proof.Proof.Gen.KernelIdeal.Skeleton
import proofs.«160166_j36773509989121_2_alg».proof.Proof.Gen.KernelIdeal.Launch
import proofs.«160166_j36773509989121_2_alg».proof.Proof.Gen.KernelIdeal.Points
import proofs.«160166_j36773509989121_2_alg».proof.Proof.Gen.KernelIdeal.Frame
import proofs.«160166_j36773509989121_2_alg».proof.Proof.Gen.ReferenceIdeal
import proofs.«160166_j36773509989121_2_alg».proof.Proof.Gen.Pre_finite_inputs
import proofs.«160166_j36773509989121_2_alg».proof.Proof.Gen.KernelIdeal.Value
import proofs.«160166_j36773509989121_2_alg».proof.Proof.Gen.ReferenceIdeal.Run
import proofs.«160166_j36773509989121_2_alg».proof.Proof.Gen.ReferenceIdeal.Read
import proofs.«160166_j36773509989121_2_alg».proof.Proof.Acc
import proofs.«160166_j36773509989121_2_alg».proof.Proof.RefIsG
import proofs.«160166_j36773509989121_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Under the precondition the launched entries are real, so the kernel's result array ends at the Gaussian kernel
    sum of its arguments; the reference's result is the same function of arguments that agree. -/
theorem algebraic : Cert.algebraic_KernelIdeal_ReferenceIdeal := by
  intro m ρ m' ρ' hpre hagree
  have hreal : ∀ c : Dev Cert.KernelIdeal.nD,
      Cert.LibRealArith.AllReal (Cert.KernelIdeal.Acc.pts m c) ∧ Cert.LibRealArith.AllReal (Cert.KernelIdeal.Acc.ctrs m c) :=
    fun c => Cert.Finite.real_of_finite _ _ (hpre c)
  refine ⟨fun c => Cert.Rbf.G (Cert.KernelIdeal.Acc.pts m c) (Cert.KernelIdeal.Acc.ctrs m c),
    Cert.KernelIdeal.Acc.run m ρ hreal, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.RefValue.ref_eq_G, (hagree c).1,
    (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
